-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x26 : Shape := ⟨2, ![16384, 26]⟩
abbrev S26x100000x1 : Shape := ⟨3, ![26, 100000, 1]⟩
abbrev S26x100000x16 : Shape := ⟨3, ![26, 100000, 16]⟩
abbrev S416x256 : Shape := ⟨2, ![416, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S26x100000x1 : S_.BroadcastsInDim S26x100000x1 (![] : Fin 0 → Fin S26x100000x1.rank)
  reducesTo_S26x100000x1_S_d0_1_2 : S26x100000x1.ReducesTo [0, 1, 2] S_
  h_S_ : 0 < S_.numel
  bcast_S_S26x100000x16 : S_.BroadcastsInDim S26x100000x16 (![] : Fin 0 → Fin S26x100000x16.rank)
  reducesTo_S26x100000x16_S_d0_1_2 : S26x100000x16.ReducesTo [0, 1, 2] S_
  bcast_S_S416x256 : S_.BroadcastsInDim S416x256 (![] : Fin 0 → Fin S416x256.rank)
  reducesTo_S416x256_S_d0_1 : S416x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S128x1 .f32) (main_arg16 : FVec F S1 .f32) (main_v63 : IVec S_ 1) (main_v67 : IVec S_ 1) : IVec S_ 1 :=
  let main_v68 : IVec S_ 1 := andi main_v63 main_v67
  let main_v69 : FVec F S128x1 .f32 := Host.absf main_arg15
  let main_cst_26 : FVec F S_ .f32 := constant S_ .f32 0x7F800000#32
  let main_v70 : FVec F S128x1 .f32 := broadcastInDim S128x1 ![] bcast_S_S128x1 main_cst_26
  let main_v71 : IVec S128x1 1 := cmpf .olt main_v69 main_v70
  let main_c_27 : IVec S_ 1 := constantI S_ 1 1#1
  let main_v72 : IVec S_ 1 := (fun x v => Host.reduce IntOp.andi x v reducesTo_S128x1_S_d0_1 h_S_) main_v71 main_c_27
  let main_v73 : IVec S_ 1 := andi main_v68 main_v72
  let main_v74 : FVec F S1 .f32 := Host.absf main_arg16
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg12 : FVec F S128 .f32) (main_arg13 : FVec F S128 .f32) (main_arg14 : FVec F S128 .f32) (main_arg15 : FVec F S128x1 .f32) (main_arg16 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_v63 main_v67

def fn_part2 {F : FTy → Type} [FloatOps F] (main_arg8 : FVec F S256 .f32) (main_arg9 : FVec F S256x128 .f32) (main_arg10 : FVec F S128 .f32) (main_arg11 : FVec F S128 .f32) (main_arg12 : FVec F S128 .f32) (main_arg13 : FVec F S128 .f32) (main_arg14 : FVec F S128 .f32) (main_arg15 : FVec F S128x1 .f32) (main_arg16 : FVec F S1 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x128 .f32 := Host.absf main_arg9
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_v48 main_v49 main_v50

def fn_part1 {F : FTy → Type} [FloatOps F] (main_arg5 : FVec F S256 .f32) (main_arg6 : FVec F S256 .f32) (main_arg7 : FVec F S256 .f32) (main_arg8 : FVec F S256 .f32) (main_arg9 : FVec F S256x128 .f32) (main_arg10 : FVec F S128 .f32) (main_arg11 : FVec F S128 .f32) (main_arg12 : FVec F S128 .f32) (main_arg13 : FVec F S128 .f32) (main_arg14 : FVec F S128 .f32) (main_arg15 : FVec F S128x1 .f32) (main_arg16 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : IVec S16384x26 32) (main_arg1 : FVec F S26x100000x1 .f32) (main_arg2 : FVec F S26x100000x16 .f32) (main_arg3 : FVec F S416x256 .f32) (main_arg4 : FVec F S256 .f32) (main_arg5 : FVec F S256 .f32) (main_arg6 : FVec F S256 .f32) (main_arg7 : FVec F S256 .f32) (main_arg8 : FVec F S256 .f32) (main_arg9 : FVec F S256x128 .f32) (main_arg10 : FVec F S128 .f32) (main_arg11 : FVec F S128 .f32) (main_arg12 : FVec F S128 .f32) (main_arg13 : FVec F S128 .f32) (main_arg14 : FVec F S128 .f32) (main_arg15 : FVec F S128x1 .f32) (main_arg16 : FVec F S1 .f32) : IVec S_ 1 :=
  let main_v0 : FVec F S26x100000x1 .f32 := Host.absf main_arg1
  let main_cst : FVec F S_ .f32 := constant S_ .f32 0x7F800000#32
  let main_v1 : FVec F S26x100000x1 .f32 := broadcastInDim S26x100000x1 ![] bcast_S_S26x100000x1 main_cst
  let main_v2 : IVec S26x100000x1 1 := cmpf .olt main_v0 main_v1
  let main_c : IVec S_ 1 := constantI S_ 1 1#1
  let main_v3 : IVec S_ 1 := (fun x v => Host.reduce IntOp.andi x v reducesTo_S26x100000x1_S_d0_1_2 h_S_) main_v2 main_c
  let main_v4 : FVec F S26x100000x16 .f32 := Host.absf main_arg2
  let main_cst_0 : FVec F S_ .f32 := constant S_ .f32 0x7F800000#32
  let main_v5 : FVec F S26x100000x16 .f32 := broadcastInDim S26x100000x16 ![] bcast_S_S26x100000x16 main_cst_0
  let main_v6 : IVec S26x100000x16 1 := cmpf .olt main_v4 main_v5
  let main_c_1 : IVec S_ 1 := constantI S_ 1 1#1
  let main_v7 : IVec S_ 1 := (fun x v => Host.reduce IntOp.andi x v reducesTo_S26x100000x16_S_d0_1_2 h_S_) main_v6 main_c_1
  let main_v8 : IVec S_ 1 := andi main_v3 main_v7
  let main_v9 : FVec F S416x256 .f32 := Host.absf main_arg3
  let main_cst_2 : FVec F S_ .f32 := constant S_ .f32 0x7F800000#32
  let main_v10 : FVec F S416x256 .f32 := broadcastInDim S416x256 ![] bcast_S_S416x256 main_cst_2
  let main_v11 : IVec S416x256 1 := cmpf .olt main_v9 main_v10
  let main_c_3 : IVec S_ 1 := constantI S_ 1 1#1
  let main_v12 : IVec S_ 1 := (fun x v => Host.reduce IntOp.andi x v reducesTo_S416x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S16384x26 : Shape := ⟨2, ![16384, 26]⟩
abbrev S26x100000x1 : Shape := ⟨3, ![26, 100000, 1]⟩
abbrev S26x100000x16 : Shape := ⟨3, ![26, 100000, 16]⟩
abbrev S416x256 : Shape := ⟨2, ![416, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S26 : Shape := ⟨1, ![26]⟩
abbrev S1x26 : Shape := ⟨2, ![1, 26]⟩
abbrev S_ : Shape := ⟨0, ![]⟩
abbrev S16384x26x1 : Shape := ⟨3, ![16384, 26, 1]⟩
abbrev S16384x26x2 : Shape := ⟨3, ![16384, 26, 2]⟩
abbrev S16384x26x16 : Shape := ⟨3, ![16384, 26, 16]⟩
abbrev S16384 : Shape := ⟨1, ![16384]⟩
abbrev S16384x1 : Shape := ⟨2, ![16384, 1]⟩
abbrev S16384x416 : Shape := ⟨2, ![16384, 416]⟩
abbrev S416 : Shape := ⟨1, ![416]⟩
abbrev S416x1 : Shape := ⟨2, ![416, 1]⟩
abbrev S1x16 : Shape := ⟨2, ![1, 16]⟩
abbrev S416x16 : Shape := ⟨2, ![416, 16]⟩
abbrev S1x256 : Shape := ⟨2, ![1, 256]⟩
abbrev S1x128 : Shape := ⟨2, ![1, 128]⟩
abbrev S1x1 : Shape := ⟨2, ![1, 1]⟩
abbrev S2048x416 : Shape := ⟨2, ![2048, 416]⟩
abbrev S2048x1 : Shape := ⟨2, ![2048, 1]⟩
abbrev S2048x256 : Shape := ⟨2, ![2048, 256]⟩
abbrev S2048x128 : Shape := ⟨2, ![2048, 128]⟩
abbrev S2048x16 : Shape := ⟨2, ![2048, 16]⟩
abbrev S2048 : Shape := ⟨1, ![2048]⟩

abbrev nBuf : Space → Nat
  | .hbm => 107
  | .vmem => 21
  | .smem => 0
  | _ => 0

abbrev bufTy : (tb : Table) → Fin (tcTables nBuf tb) → BufTy
  | .hbm, ⟨0, _⟩ => ⟨S16384x26, .i32⟩
  | .hbm, ⟨1, _⟩ => ⟨S26x100000x1, .f32⟩
  | .hbm, ⟨2, _⟩ => ⟨S26x100000x16, .f32⟩
  | .hbm, ⟨3, _⟩ => ⟨S416x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128x1, .f32⟩
  | .hbm, ⟨16, _⟩ => ⟨S1, .f32⟩
  | .hbm, ⟨17, _⟩ => ⟨S26, .i32⟩
  | .hbm, ⟨18, _⟩ => ⟨S1x26, .i32⟩
  | .hbm, ⟨19, _⟩ => ⟨S_, .i32⟩
  | .hbm, ⟨20, _⟩ => ⟨S1x26, .i32⟩
  | .hbm, ⟨21, _⟩ => ⟨S1x26, .i1⟩
  | .hbm, ⟨22, _⟩ => ⟨S_, .i32⟩
  | .hbm, ⟨23, _⟩ => ⟨S1x26, .i32⟩
  | .hbm, ⟨24, _⟩ => ⟨S1x26, .i32⟩
  | .hbm, ⟨25, _⟩ => ⟨S1x26, .i32⟩
  | .hbm, ⟨26, _⟩ => ⟨S_, .i32⟩
  | .hbm, ⟨27, _⟩ => ⟨S16384x26, .i32⟩
  | .hbm, ⟨28, _⟩ => ⟨S16384x26, .i1⟩
  | .hbm, ⟨29, _⟩ => ⟨S_, .i32⟩
  | .hbm, ⟨30, _⟩ => ⟨S16384x26, .i32⟩
  | .hbm, ⟨31, _⟩ => ⟨S16384x26, .i32⟩
  | .hbm, ⟨32, _⟩ => ⟨S16384x26, .i32⟩
  | .hbm, ⟨33, _⟩ => ⟨S16384x26, .i32⟩
  | .hbm, ⟨34, _⟩ => ⟨S16384x26x1, .i32⟩
  | .hbm, ⟨35, _⟩ => ⟨S16384x26x1, .i32⟩
  | .hbm, ⟨36, _⟩ => ⟨S16384x26x2, .i32⟩
  | .hbm, ⟨37, _⟩ => ⟨S16384x26x1, .f32⟩
  | .hbm, ⟨38, _⟩ => ⟨S_, .i32⟩
  | .hbm, ⟨39, _⟩ => ⟨S1x26, .i32⟩
  | .hbm, ⟨40, _⟩ => ⟨S1x26, .i1⟩
  | .hbm, ⟨41, _⟩ => ⟨S_, .i32⟩
  | .hbm, ⟨42, _⟩ => ⟨S1x26, .i32⟩
  | .hbm, ⟨43, _⟩ => ⟨S1x26, .i32⟩
  | .hbm, ⟨44, _⟩ => ⟨S1x26, .i32⟩
  | .hbm, ⟨45, _⟩ => ⟨S_, .i32⟩
  | .hbm, ⟨46, _⟩ => ⟨S16384x26, .i32⟩
  | .hbm, ⟨47, _⟩ => ⟨S16384x26, .i1⟩
  | .hbm, ⟨48, _⟩ => ⟨S_, .i32⟩
  | .hbm, ⟨49, _⟩ => ⟨S16384x26, .i32⟩
  | .hbm, ⟨50, _⟩ => ⟨S16384x26, .i32⟩
  | .hbm, ⟨51, _⟩ => ⟨S16384x26, .i32⟩
  | .hbm, ⟨52, _⟩ => ⟨S16384x26, .i32⟩
  | .hbm, ⟨53, _⟩ => ⟨S16384x26x1, .i32⟩
  | .hbm, ⟨54, _⟩ => ⟨S16384x26x1, .i32⟩
  | .hbm, ⟨55, _⟩ => ⟨S16384x26x2, .i32⟩
  | .hbm, ⟨56, _⟩ => ⟨S16384x26x16, .f32⟩
  | .hbm, ⟨57, _⟩ => ⟨S16384x26, .f32⟩
  | .hbm, ⟨58, _⟩ => ⟨S_, .f32⟩
  | .hbm, ⟨59, _⟩ => ⟨S16384, .f32⟩
  | .hbm, ⟨60, _⟩ => ⟨S16384x1, .f32⟩
  | .hbm, ⟨61, _⟩ => ⟨S16384x416, .f32⟩
  | .hbm, ⟨62, _⟩ => ⟨S16384x416, .bf16⟩
  | .hbm, ⟨63, _⟩ => ⟨S416, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S_, .i1⟩
  | .hbm, ⟨68, _⟩ => ⟨S_, .i32⟩
  | .hbm, ⟨69, _⟩ => ⟨S_, .i32⟩
  | .hbm, ⟨70, _⟩ => ⟨S416, .i32⟩
  | .hbm, ⟨71, _⟩ => ⟨S416, .i32⟩
  | .hbm, ⟨72, _⟩ => ⟨S_, .i32⟩
  | .hbm, ⟨73, _⟩ => ⟨S416, .i32⟩
  | .hbm, ⟨74, _⟩ => ⟨S416, .i1⟩
  | .hbm, ⟨75, _⟩ => ⟨S_, .i32⟩
  | .hbm, ⟨76, _⟩ => ⟨S416, .i32⟩
  | .hbm, ⟨77, _⟩ => ⟨S416, .i1⟩
  | .hbm, ⟨78, _⟩ => ⟨S_, .i32⟩
  | .hbm, ⟨79, _⟩ => ⟨S_, .i1⟩
  | .hbm, ⟨80, _⟩ => ⟨S416, .i1⟩
  | .hbm, ⟨81, _⟩ => ⟨S416, .i1⟩
  | .hbm, ⟨82, _⟩ => ⟨S416, .i1⟩
  | .hbm, ⟨83, _⟩ => ⟨S416, .i32⟩
  | .hbm, ⟨84, _⟩ => ⟨S416, .i32⟩
  | .hbm, ⟨85, _⟩ => ⟨S416, .i32⟩
  | .hbm, ⟨86, _⟩ => ⟨S416x1, .i32⟩
  | .hbm, ⟨87, _⟩ => ⟨S1x16, .i32⟩
  | .hbm, ⟨88, _⟩ => ⟨S416x16, .i32⟩
  | .hbm, ⟨89, _⟩ => ⟨S416x16, .i32⟩
  | .hbm, ⟨90, _⟩ => ⟨S416x16, .i1⟩
  | .hbm, ⟨91, _⟩ => ⟨S416x16, .bf16⟩
  | .hbm, ⟨92, _⟩ => ⟨S1x256, .f32⟩
  | .hbm, ⟨93, _⟩ => ⟨S1x256, .f32⟩
  | .hbm, ⟨94, _⟩ => ⟨S1x256, .f32⟩
  | .hbm, ⟨95, _⟩ => ⟨S1x256, .f32⟩
  | .hbm, ⟨96, _⟩ => ⟨S1x256, .f32⟩
  | .hbm, ⟨97, _⟩ => ⟨S1x128, .f32⟩
  | .hbm, ⟨98, _⟩ => ⟨S1x128, .f32⟩
  | .hbm, ⟨99, _⟩ => ⟨S1x128, .f32⟩
  | .hbm, ⟨100, _⟩ => ⟨S1x128, .f32⟩
  | .hbm, ⟨101, _⟩ => ⟨S1x128, .f32⟩
  | .hbm, ⟨102, _⟩ => ⟨S1x1, .f32⟩
  | .hbm, ⟨103, _⟩ => ⟨S416x256, .bf16⟩
  | .hbm, ⟨104, _⟩ => ⟨S256x128, .bf16⟩
  | .hbm, ⟨105, _⟩ => ⟨S128x1, .bf16⟩
  | .hbm, ⟨106, _⟩ => ⟨S16384x1, .f32⟩
  | .local _ .vmem, ⟨0, _⟩ => ⟨S2048x416, .bf16⟩
  | .local _ .vmem, ⟨1, _⟩ => ⟨S2048x416, .bf16⟩
  | .local _ .vmem, ⟨2, _⟩ => ⟨S2048x1, .f32⟩
  | .local _ .vmem, ⟨3, _⟩ => ⟨S2048x1, .f32⟩
  | .local _ .vmem, ⟨4, _⟩ => ⟨S416x16, .bf16⟩
  | .local _ .vmem, ⟨5, _⟩ => ⟨S416x256, .bf16⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S256x128, .bf16⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S128x1, .bf16⟩
  | .local _ .vmem, ⟨18, _⟩ => ⟨S1x1, .f32⟩
  | .local _ .vmem, ⟨19, _⟩ => ⟨S2048x1, .f32⟩
  | .local _ .vmem, ⟨20, _⟩ => ⟨S2048x1, .f32⟩
  | _, _ => ⟨S16384x26, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_c : Ref sig .tc := ⟨.hbm, 19, rfl⟩
abbrev main_v2 : Ref sig .tc := ⟨.hbm, 20, rfl⟩
abbrev main_v3 : Ref sig .tc := ⟨.hbm, 21, rfl⟩
abbrev main_c_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c_1 : Ref sig .tc := ⟨.hbm, 26, rfl⟩
abbrev main_v7 : Ref sig .tc := ⟨.hbm, 27, rfl⟩
abbrev main_v8 : Ref sig .tc := ⟨.hbm, 28, rfl⟩
abbrev main_c_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c_3 : Ref sig .tc := ⟨.hbm, 38, rfl⟩
abbrev main_v17 : Ref sig .tc := ⟨.hbm, 39, rfl⟩
abbrev main_v18 : Ref sig .tc := ⟨.hbm, 40, rfl⟩
abbrev main_c_4 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_5 : Ref sig .tc := ⟨.hbm, 45, rfl⟩
abbrev main_v22 : Ref sig .tc := ⟨.hbm, 46, rfl⟩
abbrev main_v23 : Ref sig .tc := ⟨.hbm, 47, rfl⟩
abbrev main_c_6 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_7 : Ref sig .tc := ⟨.hbm, 64, rfl⟩
abbrev main_call0_v0 : Ref sig .tc := ⟨.hbm, 65, rfl⟩
abbrev main_call0_c : Ref sig .tc := ⟨.hbm, 66, rfl⟩
abbrev main_call0_v1 : Ref sig .tc := ⟨.hbm, 67, rfl⟩
abbrev main_call0_c_0 : Ref sig .tc := ⟨.hbm, 68, rfl⟩
abbrev main_call0_v2 : Ref sig .tc := ⟨.hbm, 69, rfl⟩
abbrev main_call0_v3 : Ref sig .tc := ⟨.hbm, 70, rfl⟩
abbrev main_call0_v4 : Ref sig .tc := ⟨.hbm, 71, rfl⟩
abbrev main_call0_c_1 : Ref sig .tc := ⟨.hbm, 72, rfl⟩
abbrev main_call0_v5 : Ref sig .tc := ⟨.hbm, 73, rfl⟩
abbrev main_call0_v6 : Ref sig .tc := ⟨.hbm, 74, rfl⟩
abbrev main_call0_c_2 : Ref sig .tc := ⟨.hbm, 75, rfl⟩
abbrev main_call0_v7 : Ref sig .tc := ⟨.hbm, 76, rfl⟩
abbrev main_call0_v8 : Ref sig .tc := ⟨.hbm, 77, rfl⟩
abbrev main_call0_c_3 : Ref sig .tc := ⟨.hbm, 78, rfl⟩
abbrev main_call0_v9 : Ref sig .tc := ⟨.hbm, 79, rfl⟩
abbrev main_call0_v10 : Ref sig .tc := ⟨.hbm, 80, rfl⟩
abbrev main_call0_v11 : Ref sig .tc := ⟨.hbm, 81, rfl⟩
abbrev main_call0_v12 : Ref sig .tc := ⟨.hbm, 82, rfl⟩
abbrev main_call0_v13 : Ref sig .tc := ⟨.hbm, 83, rfl⟩
abbrev main_call0_v14 : Ref sig .tc := ⟨.hbm, 84, rfl⟩
abbrev main_v38 : Ref sig .tc := ⟨.hbm, 85, rfl⟩
abbrev main_call1_v0 : Ref sig .tc := ⟨.hbm, 86, rfl⟩
abbrev main_call1_v1 : Ref sig .tc := ⟨.hbm, 87, rfl⟩
abbrev main_call1_v2 : Ref sig .tc := ⟨.hbm, 88, rfl⟩
abbrev main_call1_v3 : Ref sig .tc := ⟨.hbm, 89, rfl⟩
abbrev main_call1_v4 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg17_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem17_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x416 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S416x16 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S416x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x1 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S2048x1 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  bcast_S26_S1x26_1 : S26.BroadcastsInDim S1x26 (![1] : Fin 1 → Fin S1x26.rank)
  bcast_S_S1x26 : S_.BroadcastsInDim S1x26 (![] : Fin 0 → Fin S1x26.rank)
  bcast_S_S16384x26 : S_.BroadcastsInDim S16384x26 (![] : Fin 0 → Fin S16384x26.rank)
  bcast_S1x26_S16384x26_0_1 : S1x26.BroadcastsInDim S16384x26 (![0, 1] : Fin 2 → Fin S16384x26.rank)
  bcast_S16384x26_S16384x26x1_0_1 : S16384x26.BroadcastsInDim S16384x26x1 (![0, 1] : Fin 2 → Fin S16384x26x1.rank)
  concatenates_S16384x26x1_S16384x26x1_S16384x26x2_d2 : Shape.Concatenates [S16384x26x1, S16384x26x1] S16384x26x2 2
  shapeCasts_S16384x26x1_S16384x26 : S16384x26x1.ShapeCasts S16384x26
  reducesTo_S16384x26_S16384_d1 : S16384x26.ReducesTo [1] S16384
  h_S_ : 0 < S_.numel
  bcast_S16384_S16384x1_0 : S16384.BroadcastsInDim S16384x1 (![0] : Fin 1 → Fin S16384x1.rank)
  shapeCasts_S16384x26x16_S16384x416 : S16384x26x16.ShapeCasts S16384x416
  bitsLt_bf16_f32 : FTy.bits .bf16 < FTy.bits .f32
  bcast_S_S416 : S_.BroadcastsInDim S416 (![] : Fin 0 → Fin S416.rank)
  bcast_S416_S416x1_0 : S416.BroadcastsInDim S416x1 (![0] : Fin 1 → Fin S416x1.rank)
  bcast_S416x1_S416x16_0_1 : S416x1.BroadcastsInDim S416x16 (![0, 1] : Fin 2 → Fin S416x16.rank)
  bcast_S1x16_S416x16_0_1 : S1x16.BroadcastsInDim S416x16 (![0, 1] : Fin 2 → Fin S416x16.rank)
  shapeCasts_S256_S1x256 : S256.ShapeCasts S1x256
  shapeCasts_S128_S1x128 : S128.ShapeCasts S1x128
  shapeCasts_S1_S1x1 : S1.ShapeCasts S1x1
  inb_S2048x416_S2048x416_0_0 : ∀ a, (![0, 0] : Fin 2 → Nat) a + S2048x416.size a ≤ S2048x416.size a
  h_S2048x416 : 0 < S2048x416.numel
  shapeCasts_S2048x416_S2048x416 : S2048x416.ShapeCasts S2048x416
  inb_S416x256_S416x256_0_0 : ∀ a, (![0, 0] : Fin 2 → Nat) a + S416x256.size a ≤ S416x256.size a
  h_S416x256 : 0 < S416x256.numel
  shapeCasts_S416x256_S416x256 : S416x256.ShapeCasts S416x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S416x16_S416x16_0_0 : ∀ a, (![0, 0] : Fin 2 → Nat) a + S416x16.size a ≤ S416x16.size a
  h_S416x16 : 0 < S416x16.numel
  shapeCasts_S416x16_S416x16 : S416x16.ShapeCasts S416x16
  reduces_S2048x16_S2048 : S2048x16.Reduces [1] S2048
  shapeCasts_S2048_S2048x1 : S2048.ShapeCasts S2048x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  gather_S26x100000x1_S16384x26x2_S16384x26x1_2_01_n_n_01_2_111_wf : GatherDims.WF S26x100000x1 S16384x26x2 S16384x26x1 [2] [0, 1] [] [0, 1] [] 2 ![1, 1, 1]
  gather_S26x100000x16_S16384x26x2_S16384x26x16_2_01_n_n_01_2_1116_wf : GatherDims.WF S26x100000x16 S16384x26x2 S16384x26x16 [2] [0, 1] [] [0, 1] [] 2 ![1, 1, 16]
  dot_S2048x416_S416x256_S2048x256_1_0_0_1_n_n_wf : DotDims.WF S2048x416 S416x256 S2048x256 [1] [0] [0] [1] [] []
  dot_S2048x256_S256x128_S2048x128_1_0_0_1_n_n_wf : DotDims.WF S2048x256 S256x128 S2048x128 [1] [0] [0] [1] [] []
  dot_S2048x128_S128x1_S2048x1_1_0_0_1_n_n_wf : DotDims.WF S2048x128 S128x1 S2048x1 [1] [0] [0] [1] [] []
  dot_S2048x416_S416x16_S2048x16_1_0_0_1_n_n_wf : DotDims.WF S2048x416 S416x16 S2048x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x416.size a ≤ S16384x416.size a
  hwx0_0 : ∀ i : grid0.Coords, EltTy.bits .bf16 = 32 ∨ (Rect.block (s := S16384x416) S2048x416.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S16384x1.size a
  hwx0_1 : ∀ i : grid0.Coords, EltTy.bits .f32 = 32 ∨ (Rect.block (s := S16384x1) S2048x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S416x16.size a ≤ S416x16.size a
  hwx0_2 : ∀ i : grid0.Coords, EltTy.bits .bf16 = 32 ∨ (Rect.block (s := S416x16) S416x16.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S416x256.size a ≤ S416x256.size a
  hwx0_3 : ∀ i : grid0.Coords, EltTy.bits .bf16 = 32 ∨ (Rect.block (s := S416x256) S416x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x128.size a ≤ S256x128.size a
  hwx0_9 : ∀ i : grid0.Coords, EltTy.bits .bf16 = 32 ∨ (Rect.block (s := S256x128) S256x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x128.size a ≤ S1x128.size a
  hwx0_14 : ∀ i : grid0.Coords, EltTy.bits .f32 = 32 ∨ (Rect.block (s := S1x128) S1x128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128x1.size a ≤ S128x1.size a
  hwx0_15 : ∀ i : grid0.Coords, EltTy.bits .bf16 = 32 ∨ (Rect.block (s := S128x1) S128x1.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x1.size a ≤ S1x1.size a
  hwx0_16 : ∀ i : grid0.Coords, EltTy.bits .f32 = 32 ∨ (Rect.block (s := S1x1) S1x1.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S2048x1.size a ≤ S16384x1.size a
  hwx0_17 : ∀ i : grid0.Coords, EltTy.bits .f32 = 32 ∨ (Rect.block (s := S16384x1) S2048x1.size (cc0_transform_17 i) (hinb0_17 i)).WholeWords (EltTy.packing .f32)

variable [Facts₀]

def gather_S26x100000x1_S16384x26x2_S16384x26x1_2_01_n_n_01_2_111 : GatherDims S26x100000x1 S16384x26x2 S16384x26x1 where
  offsetDims := [2]
  collapsedSliceDims := [0, 1]
  operandBatchingDims := []
  startIndicesBatchingDims := []
  startIndexMap := [0, 1]
  indexVectorDim := 2
  sliceSizes := ![1, 1, 1]
  wf := gather_S26x100000x1_S16384x26x2_S16384x26x1_2_01_n_n_01_2_111_wf
def gather_S26x100000x16_S16384x26x2_S16384x26x16_2_01_n_n_01_2_1116 : GatherDims S26x100000x16 S16384x26x2 S16384x26x16 where
  offsetDims := [2]
  collapsedSliceDims := [0, 1]
  operandBatchingDims := []
  startIndicesBatchingDims := []
  startIndexMap := [0, 1]
  indexVectorDim := 2
  sliceSizes := ![1, 1, 16]
  wf := gather_S26x100000x16_S16384x26x2_S16384x26x16_2_01_n_n_01_2_1116_wf
def dot_S2048x416_S416x256_S2048x256_1_0_0_1_n_n : DotDims S2048x416 S416x256 S2048x256 where
  lhsContracting := [1]
  rhsContracting := [0]
  lhsNonContracting := [0]
  rhsNonContracting := [1]
  lhsBatch := []
  rhsBatch := []
  wf := dot_S2048x416_S416x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf
def dot_S2048x416_S416x16_S2048x16_1_0_0_1_n_n : DotDims S2048x416 S416x16 S2048x16 where
  lhsContracting := [1]
  rhsContracting := [0]
  lhsNonContracting := [0]
  rhsNonContracting := [1]
  lhsBatch := []
  rhsBatch := []
  wf := dot_S2048x416_S416x16_S2048x16_1_0_0_1_n_n_wf

abbrev win0_0 : Pipeline.Window sig grid0 :=
  Pipeline.Window.ofSpec (Memref.whole main_v36) S2048x416.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v39) S416x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v51) S416x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v40) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v41) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v42) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v43) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v44) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v52) S256x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v45) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v46) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v47) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v48) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v49) S1x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v53) S128x1.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v50) S1x1.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v54) S2048x1.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S16384x26 : Shape := ⟨2, ![16384, 26]⟩
abbrev S26x100000x1 : Shape := ⟨3, ![26, 100000, 1]⟩
abbrev S26x100000x16 : Shape := ⟨3, ![26, 100000, 16]⟩
abbrev S416x256 : Shape := ⟨2, ![416, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S26 : Shape := ⟨1, ![26]⟩
abbrev S1x26 : Shape := ⟨2, ![1, 26]⟩
abbrev S_ : Shape := ⟨0, ![]⟩
abbrev S16384x26x1 : Shape := ⟨3, ![16384, 26, 1]⟩
abbrev S16384x26x2 : Shape := ⟨3, ![16384, 26, 2]⟩
abbrev S16384x26x16 : Shape := ⟨3, ![16384, 26, 16]⟩
abbrev S16384 : Shape := ⟨1, ![16384]⟩
abbrev S16384x1 : Shape := ⟨2, ![16384, 1]⟩
abbrev S16384x16 : Shape := ⟨2, ![16384, 16]⟩
abbrev S16384x416 : Shape := ⟨2, ![16384, 416]⟩
abbrev S16384x256 : Shape := ⟨2, ![16384, 256]⟩
abbrev S1x256 : Shape := ⟨2, ![1, 256]⟩
abbrev S16384x128 : Shape := ⟨2, ![16384, 128]⟩
abbrev S1x128 : Shape := ⟨2, ![1, 128]⟩
abbrev S1x1 : Shape := ⟨2, ![1, 1]⟩

abbrev nBuf : Space → Nat
  | .hbm => 135
  | .vmem => 0
  | .smem => 0
  | _ => 0

abbrev hbmTy0_0 (i : Nat) : BufTy := match i % 128 with
  | 0 => ⟨S16384x26, .i32⟩
  | 1 => ⟨S26x100000x1, .f32⟩
  | 2 => ⟨S26x100000x16, .f32⟩
  | 3 => ⟨S416x256, .f32⟩
  | 4 => ⟨S256, .f32⟩
  | 5 => ⟨S256, .f32⟩
  | 6 => ⟨S256, .f32⟩
  | 7 => ⟨S256, .f32⟩
  | 8 => ⟨S256, .f32⟩
  | 9 => ⟨S256x128, .f32⟩
  | 10 => ⟨S128, .f32⟩
  | 11 => ⟨S128, .f32⟩
  | 12 => ⟨S128, .f32⟩
  | 13 => ⟨S128, .f32⟩
  | 14 => ⟨S128, .f32⟩
  | 15 => ⟨S128x1, .f32⟩
  | 16 => ⟨S1, .f32⟩
  | 17 => ⟨S26, .i32⟩
  | 18 => ⟨S1x26, .i32⟩
  | 19 => ⟨S_, .i32⟩
  | 20 => ⟨S1x26, .i32⟩
  | 21 => ⟨S1x26, .i1⟩
  | 22 => ⟨S_, .i32⟩
  | 23 => ⟨S1x26, .i32⟩
  | 24 => ⟨S1x26, .i32⟩
  | 25 => ⟨S1x26, .i32⟩
  | 26 => ⟨S_, .i32⟩
  | 27 => ⟨S16384x26, .i32⟩
  | 28 => ⟨S16384x26, .i1⟩
  | 29 => ⟨S_, .i32⟩
  | 30 => ⟨S16384x26, .i32⟩
  | 31 => ⟨S16384x26, .i32⟩
  | 32 => ⟨S16384x26, .i32⟩
  | 33 => ⟨S16384x26, .i32⟩
  | 34 => ⟨S16384x26x1, .i32⟩
  | 35 => ⟨S16384x26x1, .i32⟩
  | 36 => ⟨S16384x26x2, .i32⟩
  | 37 => ⟨S16384x26x1, .f32⟩
  | 38 => ⟨S_, .i32⟩
  | 39 => ⟨S1x26, .i32⟩
  | 40 => ⟨S1x26, .i1⟩
  | 41 => ⟨S_, .i32⟩
  | 42 => ⟨S1x26, .i32⟩
  | 43 => ⟨S1x26, .i32⟩
  | 44 => ⟨S1x26, .i32⟩
  | 45 => ⟨S_, .i32⟩
  | 46 => ⟨S16384x26, .i32⟩
  | 47 => ⟨S16384x26, .i1⟩
  | 48 => ⟨S_, .i32⟩
  | 49 => ⟨S16384x26, .i32⟩
  | 50 => ⟨S16384x26, .i32⟩
  | 51 => ⟨S16384x26, .i32⟩
  | 52 => ⟨S16384x26, .i32⟩
  | 53 => ⟨S16384x26x1, .i32⟩
  | 54 => ⟨S16384x26x1, .i32⟩
  | 55 => ⟨S16384x26x2, .i32⟩
  | 56 => ⟨S16384x26x16, .f32⟩
  | 57 => ⟨S16384x26, .f32⟩
  | 58 => ⟨S_, .f32⟩
  | 59 => ⟨S16384, .f32⟩
  | 60 => ⟨S16384x1, .f32⟩
  | 61 => ⟨S_, .f32⟩
  | 62 => ⟨S16384x16, .f32⟩
  | 63 => ⟨S16384x16, .f32⟩
  | 64 => ⟨S16384x26x16, .f32⟩
  | 65 => ⟨S_, .f32⟩
  | 66 => ⟨S16384x16, .f32⟩
  | 67 => ⟨S16384x16, .f32⟩
  | 68 => ⟨S_, .f32⟩
  | 69 => ⟨S16384, .f32⟩
  | 70 => ⟨S16384x1, .f32⟩
  | 71 => ⟨S_, .f32⟩
  | 72 => ⟨S16384x1, .f32⟩
  | 73 => ⟨S16384x1, .f32⟩
  | 74 => ⟨S16384x416, .f32⟩
  | 75 => ⟨S16384x256, .f32⟩
  | 76 => ⟨S1x256, .f32⟩
  | 77 => ⟨S16384x256, .f32⟩
  | 78 => ⟨S16384x256, .f32⟩
  | 79 => ⟨S1x256, .f32⟩
  | 80 => ⟨S16384x256, .f32⟩
  | 81 => ⟨S16384x256, .f32⟩
  | 82 => ⟨S_, .f32⟩
  | 83 => ⟨S256, .f32⟩
  | 84 => ⟨S256, .f32⟩
  | 85 => ⟨S256, .f32⟩
  | 86 => ⟨S1x256, .f32⟩
  | 87 => ⟨S16384x256, .f32⟩
  | 88 => ⟨S16384x256, .f32⟩
  | 89 => ⟨S1x256, .f32⟩
  | 90 => ⟨S16384x256, .f32⟩
  | 91 => ⟨S16384x256, .f32⟩
  | 92 => ⟨S1x256, .f32⟩
  | 93 => ⟨S16384x256, .f32⟩
  | 94 => ⟨S16384x256, .f32⟩
  | 95 => ⟨S_, .f32⟩
  | 96 => ⟨S16384x256, .f32⟩
  | 97 => ⟨S16384x256, .f32⟩
  | 98 => ⟨S16384x128, .f32⟩
  | 99 => ⟨S1x128, .f32⟩
  | 100 => ⟨S16384x128, .f32⟩
  | 101 => ⟨S16384x128, .f32⟩
  | 102 => ⟨S1x128, .f32⟩
  | 103 => ⟨S16384x128, .f32⟩
  | 104 => ⟨S16384x128, .f32⟩
  | 105 => ⟨S_, .f32⟩
  | 106 => ⟨S128, .f32⟩
  | 107 => ⟨S128, .f32⟩
  | 108 => ⟨S128, .f32⟩
  | 109 => ⟨S1x128, .f32⟩
  | 110 => ⟨S16384x128, .f32⟩
  | 111 => ⟨S16384x128, .f32⟩
  | 112 => ⟨S1x128, .f32⟩
  | 113 => ⟨S16384x128, .f32⟩
  | 114 => ⟨S16384x128, .f32⟩
  | 115 => ⟨S1x128, .f32⟩
  | 116 => ⟨S16384x128, .f32⟩
  | 117 => ⟨S16384x128, .f32⟩
  | 118 => ⟨S_, .f32⟩
  | 119 => ⟨S16384x128, .f32⟩
  | 120 => ⟨S16384x128, .f32⟩
  | 121 => ⟨S16384x1, .f32⟩
  | 122 => ⟨S1x1, .f32⟩
  | 123 => ⟨S16384x1, .f32⟩
  | 124 => ⟨S16384x1, .f32⟩
  | 125 => ⟨S16384x1, .f32⟩
  | 126 => ⟨S16384x1, .f32⟩
  | 127 => ⟨S16384x1, .f32⟩
  | _ => ⟨S16384x26, .i32⟩

abbrev hbmTy0_1 (i : Nat) : BufTy := match i % 128 with
  | 0 => ⟨S16384x1, .f32⟩
  | 1 => ⟨S_, .f32⟩
  | 2 => ⟨S16384x1, .f32⟩
  | 3 => ⟨S16384x1, .f32⟩
  | 4 => ⟨S_, .f32⟩
  | 5 => ⟨S16384x1, .f32⟩
  | 6 => ⟨S16384x1, .f32⟩
  | _ => ⟨S16384x26, .i32⟩

abbrev hbmTy (i : Nat) : BufTy := match i / 128 with
  | 0 => hbmTy0_0 i
  | 1 => hbmTy0_1 i
  | _ => ⟨S16384x26, .i32⟩

abbrev bufTy : (tb : Table) → Fin (tcTables nBuf tb) → BufTy
  | .hbm, ⟨i, _⟩ => hbmTy i
  | _, _ => ⟨S16384x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_c : Ref sig .tc := ⟨.hbm, 19, rfl⟩
abbrev main_v2 : Ref sig .tc := ⟨.hbm, 20, rfl⟩
abbrev main_v3 : Ref sig .tc := ⟨.hbm, 21, rfl⟩
abbrev main_c_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c_1 : Ref sig .tc := ⟨.hbm, 26, rfl⟩
abbrev main_v7 : Ref sig .tc := ⟨.hbm, 27, rfl⟩
abbrev main_v8 : Ref sig .tc := ⟨.hbm, 28, rfl⟩
abbrev main_c_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c_3 : Ref sig .tc := ⟨.hbm, 38, rfl⟩
abbrev main_v17 : Ref sig .tc := ⟨.hbm, 39, rfl⟩
abbrev main_v18 : Ref sig .tc := ⟨.hbm, 40, rfl⟩
abbrev main_c_4 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_5 : Ref sig .tc := ⟨.hbm, 45, rfl⟩
abbrev main_v22 : Ref sig .tc := ⟨.hbm, 46, rfl⟩
abbrev main_v23 : Ref sig .tc := ⟨.hbm, 47, rfl⟩
abbrev main_c_6 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst : Ref sig .tc := ⟨.hbm, 58, rfl⟩
abbrev main_v33 : Ref sig .tc := ⟨.hbm, 59, rfl⟩
abbrev main_v34 : Ref sig .tc := ⟨.hbm, 60, rfl⟩
abbrev main_cst_7 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_8 : Ref sig .tc := ⟨.hbm, 65, rfl⟩
abbrev main_v38 : Ref sig .tc := ⟨.hbm, 66, rfl⟩
abbrev main_v39 : Ref sig .tc := ⟨.hbm, 67, rfl⟩
abbrev main_cst_9 : Ref sig .tc := ⟨.hbm, 68, rfl⟩
abbrev main_v40 : Ref sig .tc := ⟨.hbm, 69, rfl⟩
abbrev main_v41 : Ref sig .tc := ⟨.hbm, 70, rfl⟩
abbrev main_cst_10 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_11 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_call0_cst : Ref sig .tc := ⟨.hbm, 95, rfl⟩
abbrev main_call0_v0 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_12 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_call1_cst : Ref sig .tc := ⟨.hbm, 118, rfl⟩
abbrev main_call1_v0 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_13 : Ref sig .tc := ⟨.hbm, 129, rfl⟩
abbrev main_v93 : Ref sig .tc := ⟨.hbm, 130, rfl⟩
abbrev main_v94 : Ref sig .tc := ⟨.hbm, 131, rfl⟩
abbrev main_cst_14 : Ref sig .tc := ⟨.hbm, 132, rfl⟩
abbrev main_v95 : Ref sig .tc := ⟨.hbm, 133, rfl⟩
abbrev main_v96 : Ref sig .tc := ⟨.hbm, 134, rfl⟩

abbrev nD : Nat := 1
abbrev τ : Topo := Topo.v7x

variable {F : FTy → Type} [FloatOps F]

class Facts₀ : Prop where
  bcast_S26_S1x26_1 : S26.BroadcastsInDim S1x26 (![1] : Fin 1 → Fin S1x26.rank)
  bcast_S_S1x26 : S_.BroadcastsInDim S1x26 (![] : Fin 0 → Fin S1x26.rank)
  bcast_S_S16384x26 : S_.BroadcastsInDim S16384x26 (![] : Fin 0 → Fin S16384x26.rank)
  bcast_S1x26_S16384x26_0_1 : S1x26.BroadcastsInDim S16384x26 (![0, 1] : Fin 2 → Fin S16384x26.rank)
  bcast_S16384x26_S16384x26x1_0_1 : S16384x26.BroadcastsInDim S16384x26x1 (![0, 1] : Fin 2 → Fin S16384x26x1.rank)
  concatenates_S16384x26x1_S16384x26x1_S16384x26x2_d2 : Shape.Concatenates [S16384x26x1, S16384x26x1] S16384x26x2 2
  shapeCasts_S16384x26x1_S16384x26 : S16384x26x1.ShapeCasts S16384x26
  reducesTo_S16384x26_S16384_d1 : S16384x26.ReducesTo [1] S16384
  h_S_ : 0 < S_.numel
  bcast_S16384_S16384x1_0 : S16384.BroadcastsInDim S16384x1 (![0] : Fin 1 → Fin S16384x1.rank)
  reducesTo_S16384x26x16_S16384x16_d1 : S16384x26x16.ReducesTo [1] S16384x16
  reducesTo_S16384x16_S16384_d1 : S16384x16.ReducesTo [1] S16384
  bcast_S_S16384x1 : S_.BroadcastsInDim S16384x1 (![] : Fin 0 → Fin S16384x1.rank)
  shapeCasts_S16384x26x16_S16384x416 : S16384x26x16.ShapeCasts S16384x416
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S256 : S_.BroadcastsInDim S256 (![] : Fin 0 → Fin S256.rank)
  bcast_S_S16384x256 : S_.BroadcastsInDim S16384x256 (![] : Fin 0 → Fin S16384x256.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S128 : S_.BroadcastsInDim S128 (![] : Fin 0 → Fin S128.rank)
  bcast_S_S16384x128 : S_.BroadcastsInDim S16384x128 (![] : Fin 0 → Fin S16384x128.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  gather_S26x100000x1_S16384x26x2_S16384x26x1_2_01_n_n_01_2_111_wf : GatherDims.WF S26x100000x1 S16384x26x2 S16384x26x1 [2] [0, 1] [] [0, 1] [] 2 ![1, 1, 1]
  gather_S26x100000x16_S16384x26x2_S16384x26x16_2_01_n_n_01_2_1116_wf : GatherDims.WF S26x100000x16 S16384x26x2 S16384x26x16 [2] [0, 1] [] [0, 1] [] 2 ![1, 1, 16]
  dot_S16384x416_S416x256_S16384x256_1_0_0_1_n_n_wf : DotDims.WF S16384x416 S416x256 S16384x256 [1] [0] [0] [1] [] []
  dot_S16384x256_S256x128_S16384x128_1_0_0_1_n_n_wf : DotDims.WF S16384x256 S256x128 S16384x128 [1] [0] [0] [1] [] []
  dot_S16384x128_S128x1_S16384x1_1_0_0_1_n_n_wf : DotDims.WF S16384x128 S128x1 S16384x1 [1] [0] [0] [1] [] []

variable [Facts₀]

def gather_S26x100000x1_S16384x26x2_S16384x26x1_2_01_n_n_01_2_111 : GatherDims S26x100000x1 S16384x26x2 S16384x26x1 where
  offsetDims := [2]
  collapsedSliceDims := [0, 1]
  operandBatchingDims := []
  startIndicesBatchingDims := []
  startIndexMap := [0, 1]
  indexVectorDim := 2
  sliceSizes := ![1, 1, 1]
  wf := gather_S26x100000x1_S16384x26x2_S16384x26x1_2_01_n_n_01_2_111_wf
def gather_S26x100000x16_S16384x26x2_S16384x26x16_2_01_n_n_01_2_1116 : GatherDims S26x100000x16 S16384x26x2 S16384x26x16 where
  offsetDims := [2]
  collapsedSliceDims := [0, 1]
  operandBatchingDims := []
  startIndicesBatchingDims := []
  startIndexMap := [0, 1]
  indexVectorDim := 2
  sliceSizes := ![1, 1, 16]
  wf := gather_S26x100000x16_S16384x26x2_S16384x26x16_2_01_n_n_01_2_1116_wf
def dot_S16384x416_S416x256_S16384x256_1_0_0_1_n_n : DotDims S16384x416 S416x256 S16384x256 where
  lhsContracting := [1]
  rhsContracting := [0]
  lhsNonContracting := [0]
  rhsNonContracting := [1]
  lhsBatch := []
  rhsBatch := []
  wf := dot_S16384x416_S416x256_S16384x256_1_0_0_1_n_n_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf
def dot_S16384x128_S128x1_S16384x1_1_0_0_1_n_n : DotDims S16384x128 S128x1 S16384x1 where
  lhsContracting := [1]
  rhsContracting := [0]
  lhsNonContracting := [0]
  rhsNonContracting := [1]
  lhsBatch := []
  rhsBatch := []
  wf := dot_S16384x128_S128x1_S16384x1_1_0_0_1_n_n_wf

class Facts : Prop extends Facts₀ where

variable [Facts]
-- ==== Proof.SelectSum.lean ====
/-
  Summing 416 = 26 · 16 columns against a 0/1 column selector.

  Column `c` of a row of length 416 belongs to feature `c / 16` and to embedding coordinate `c % 16`.  A selector that is
  one exactly on the columns whose coordinate is `d` and zero elsewhere therefore turns the sum over all 416 columns into
  the sum, over the 26 features, of the entry at coordinate `d`.  Only `x · 0 = 0` and `x · 1 = x` are used, so the law
  holds on the extended reals without any finiteness.
-/
import Idealize.ShloMosaic.PureOps.Ideal

namespace Cert.DeepFM

/-- A column of the flattened row, as (feature, coordinate): column `16 f + d`. -/
def colEquiv : Fin 26 × Fin 16 ≃ Fin 416 where
  toFun x := ⟨16 * x.1.val + x.2.val, by have := x.1.isLt; have := x.2.isLt; omega⟩
  invFun c := (⟨c.val / 16, by have := c.isLt; omega⟩, ⟨c.val % 16, by omega⟩)
  left_inv x := by
    obtain ⟨f, d⟩ := x
    have hf := f.isLt
    have hd := d.isLt
    apply Prod.ext <;> apply Fin.ext
    · show (16 * f.val + d.val) / 16 = f.val; omega
    · show (16 * f.val + d.val) % 16 = d.val; omega
  right_inv c := by
    apply Fin.ext
    show 16 * (c.val / 16) + c.val % 16 = c.val
    omega

/-- The column that holds coordinate `d` of feature `f`. -/
def col (f : Fin 26) (d : Fin 16) : Fin 416 := colEquiv (f, d)

theorem col_val (f : Fin 26) (d : Fin 16) : (col f d).val = 16 * f.val + d.val := rfl

/-- A row summed against the selector of coordinate `d` is the sum over the features of their entry at `d`. -/
theorem sum_mul_select (h S : Fin 416 → EReal) (d : Fin 16) (hS : ∀ c : Fin 416, S c = if c.val % 16 = d.val then 1 else 0) :
    ∑ c : Fin 416, h c * S c = ∑ f : Fin 26, h (col f d) := by
  rw [← colEquiv.sum_comp, Fintype.sum_prod_type]
  refine Finset.sum_congr rfl fun f _ => ?_
  have hterm : ∀ d' : Fin 16, h (colEquiv (f, d')) * S (colEquiv (f, d')) = if d' = d then h (col f d) else 0 := by
    intro d'
    have hv : (colEquiv (f, d')).val % 16 = d'.val := by
      show (16 * f.val + d'.val) % 16 = d'.val
      have := d'.isLt
      omega
    rw [hS, hv]
    by_cases hd : d' = d
    · subst hd
      rw [if_pos rfl, if_pos rfl, mul_one]
      rfl
    · rw [if_neg (fun e => hd (Fin.ext e)), if_neg hd, mul_zero]
  rw [Finset.sum_congr rfl fun d' _ => hterm d']
  exact (Finset.sum_ite_eq' Finset.univ d (fun _ => h (col f d))).trans (if_pos (Finset.mem_univ d))

end Cert.DeepFM
-- ==== Proof.Model.lean ====
/-
  The score of one example, on the extended reals.

  One row of the batch goes through two dense layers, each followed by a normalisation with given per-column statistics and
  a clamp from below, then through a last dense layer of one column; the first-order term and half the second-order
  interaction term are added and the logistic function is applied.  Both programs are read into this one function; they
  differ only in how the two per-coordinate sums `se` (of the embeddings) and `sq` (of their squares) are obtained.
-/
import Idealize.ShloMosaic.PureOps.Ideal
import Idealize.ShloMosaic.Lib.ValueIdx
import proofs.«147037_j43757126812202_2_alg».proof.Proof.SelectSum

noncomputable section

namespace Cert.DeepFM

open Idealize.ShloMosaic Idealize.ShloMosaic.ValueIdx

/-- The three float words both programs use: the variance shift, the clamp level, one half. Each is the same word on
    both sides, so none is ever evaluated. -/
abbrev epsW : EReal := Ideal.ofBits .f32 0x3727C5AC#32
abbrev loW : EReal := Ideal.ofBits .f32 0x00000000#32
abbrev halfW : EReal := Ideal.ofBits .f32 0x3F000000#32

/-- Column `j` of `x · W + b`. -/
def dense {K N : ℕ} (x : Fin K → EReal) (W : Fin K → Fin N → EReal) (b : Fin N → EReal) (j : Fin N) : EReal :=
  (∑ k : Fin K, x k * W k j) + b j

/-- `(z − m) · (v + ε)^(−1/2) · g + β`, clamped from below at `lo`. -/
def normClamp (eps lo z m v g be : EReal) : EReal :=
  max ((z - m) * Ideal.rsqrt (v + eps) * g + be) lo

/-- Half the sum over the coordinates of (square of the sum) − (sum of the squares). -/
def interaction (half : EReal) (se sq : Fin 16 → EReal) : EReal :=
  half * ∑ d : Fin 16, (se d * se d - sq d)

/-- The score of one row `x` with first-order term `fm1` and per-coordinate sums `se`, `sq`. -/
def score (eps lo half : EReal) (x : Fin 416 → EReal) (se sq : Fin 16 → EReal) (fm1 : EReal)
    (W1 : Fin 416 → Fin 256 → EReal) (b1 g1 be1 m1 v1 : Fin 256 → EReal)
    (W2 : Fin 256 → Fin 128 → EReal) (b2 g2 be2 m2 v2 : Fin 128 → EReal)
    (W3 : Fin 128 → Fin 1 → EReal) (b3 : Fin 1 → EReal) : EReal :=
  Ideal.logistic
    (dense (fun j => normClamp eps lo
        (dense (fun j => normClamp eps lo (dense x W1 b1 j) (m1 j) (v1 j) (g1 j) (be1 j)) W2 b2 j)
        (m2 j) (v2 j) (g2 j) (be2 j)) W3 b3 0
      + fm1 + interaction half se sq)

/-! ## The whole batch -/

/-- The feature and the embedding coordinate that column `c` of a flattened row holds: `c / 16` and `c % 16`. -/
def featOf (c : Fin 416) : Fin 26 := (colEquiv.symm c).1
def coordOf (c : Fin 416) : Fin 16 := (colEquiv.symm c).2

theorem featOf_val (c : Fin 416) : (featOf c).val = c.val / 16 := rfl
theorem coordOf_val (c : Fin 416) : (coordOf c).val = c.val % 16 := rfl
theorem featOf_col (f : Fin 26) (d : Fin 16) : featOf (col f d) = f := by
  unfold featOf col; rw [Equiv.symm_apply_apply]
theorem coordOf_col (f : Fin 26) (d : Fin 16) : coordOf (col f d) = d := by
  unfold coordOf col; rw [Equiv.symm_apply_apply]

/-- The row a result index belongs to. -/
def rowOf (i : (⟨2, ![16384, 1]⟩ : Shape).Idx) : Fin 16384 := i 0

theorem rowOf_ix2 (r : Fin 16384) (z : Fin 1) : rowOf (ix2 r z) = r := rfl

/-- The scores of the whole batch as ONE function of the gathered embeddings `E` (`[16384, 26, 16]`), the first-order terms
    `FM1` (`[16384, 1]`) and the parameter arrays: entry `(r, 0)` is the `score` of row `r`, whose flattened row holds
    `E r (c / 16) (c % 16)` in column `c` and whose per-coordinate sums run over the 26 features. -/
def scoreArray (E : (⟨3, ![16384, 26, 16]⟩ : Shape).Idx → EReal) (FM1 : (⟨2, ![16384, 1]⟩ : Shape).Idx → EReal)
    (A3 : (⟨2, ![416, 256]⟩ : Shape).Idx → EReal) (A4 A5 A6 A7 A8 : (⟨1, ![256]⟩ : Shape).Idx → EReal)
    (A9 : (⟨2, ![256, 128]⟩ : Shape).Idx → EReal) (A10 A11 A12 A13 A14 : (⟨1, ![128]⟩ : Shape).Idx → EReal)
    (A15 : (⟨2, ![128, 1]⟩ : Shape).Idx → EReal) (A16 : (⟨1, ![1]⟩ : Shape).Idx → EReal) :
    (⟨2, ![16384, 1]⟩ : Shape).Idx → EReal := fun i =>
  score epsW loW halfW (fun c => E (ix3 (rowOf i) (featOf c) (coordOf c)))
    (fun d => ∑ f : Fin 26, E (ix3 (rowOf i) f d))
    (fun d => ∑ f : Fin 26, E (ix3 (rowOf i) f d) * E (ix3 (rowOf i) f d))
    (FM1 (ix2 (rowOf i) (0 : Fin 1)))
    (fun c j => A3 (ix2 c j)) (fun j => A4 (ix1 j)) (fun j => A5 (ix1 j)) (fun j => A6 (ix1 j)) (fun j => A7 (ix1 j)) (fun j => A8 (ix1 j))
    (fun c j => A9 (ix2 c j)) (fun j => A10 (ix1 j)) (fun j => A11 (ix1 j)) (fun j => A12 (ix1 j)) (fun j => A13 (ix1 j)) (fun j => A14 (ix1 j))
    (fun c j => A15 (ix2 c j)) (fun j => A16 (ix1 j))

end Cert.DeepFM

end
-- ==== Proof.LibMatmulRead.lean ====
/-
  A matrix product read at an entry.

  For a product of an `[M, K]` matrix by a `[K, N]` matrix whose dimension record contracts the left operand's columns
  against the right operand's rows, the entry `(p, j)` of the product into a zero accumulator is `∑ₖ L(p, k) · R(k, j)`:
  the contraction index, a one-axis index, is re-indexed by its single coordinate.
-/
import Idealize.ShloMosaic.PureOps.Ideal.Laws
import Idealize.ShloMosaic.Lib.ValueIdx

noncomputable section

namespace Cert.Contract

open Idealize.ShloMosaic Idealize.ShloMosaic.ValueIdx

/-- Entry `(p, j)` of `L · R` accumulated from zero, given where the record sends an output index and a contraction
    index in each operand (`hl0 … hr1`: rows of the left operand follow the output's rows, its columns the contraction;
    rows of the right operand follow the contraction, its columns the output's columns). -/
theorem matmul_zero_ix2 {M K N : ℕ} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (L : FVec Ideal ⟨2, ![M, K]⟩ φ₁) (R : FVec Ideal ⟨2, ![K, N]⟩ φ₂) (p : Fin M) (j : Fin N) :
    FloatOps.matmul D prec L R (constant (F := Ideal) ⟨2, ![M, N]⟩ .f32 0x00000000#32) (ix2 p j)
      = ∑ k : Fin K, L (ix2 p k) * R (ix2 k j) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

end Cert.Contract

end
-- ==== Proof.LibBroadcast.lean ====
/-
  Broadcasts of a single column, read at an index, and the two small re-layouts of a vector as a matrix.

  An `[a, 1]` array broadcast to `[a, b]` has at `(p, c)` the column's entry `p`.  A vector of length `n` re-laid as a
  `[1, n]` row or as an `[n, 1]` column keeps its entries in order.
-/
import Idealize.ShloMosaic.Lib.Pipeline.Value
import Idealize.ShloMosaic.Lib.ValueLayout
import Idealize.ShloMosaic.Lib.ValueIdx

noncomputable section

namespace Cert.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector re-laid as a one-row matrix: entry `(0, q)` is entry `q`. -/
theorem shapeCast_row_apply {n : ℕ} (v : (⟨1, ![n]⟩ : Shape).Idx → α) (h : (⟨1, ![n]⟩ : Shape).ShapeCasts ⟨2, ![1, n]⟩) (q : Fin n) :
    shapeCast (⟨2, ![1, n]⟩ : Shape) v h (ix2 (0 : Fin 1) q) = v (ix1 q) := by
  refine shapeCast_apply v h (ix2 (0 : Fin 1) q) (ix1 q) ?_
  rw [Shape.rowMajor_val_two, Shape.rowMajor_val_one]
  show q.val = 0 * n + q.val
  omega

/-- A vector re-laid as a one-column matrix: entry `(p, 0)` is entry `p`. -/
theorem shapeCast_col_apply {n : ℕ} (v : (⟨1, ![n]⟩ : Shape).Idx → α) (h : (⟨1, ![n]⟩ : Shape).ShapeCasts ⟨2, ![n, 1]⟩) (p : Fin n) :
    shapeCast (⟨2, ![n, 1]⟩ : Shape) v h (ix2 p (0 : Fin 1)) = v (ix1 p) := by
  refine shapeCast_apply v h (ix2 p (0 : Fin 1)) (ix1 p) ?_
  rw [Shape.rowMajor_val_two, Shape.rowMajor_val_one]
  show p.val = p.val * 1 + 0
  omega

end Cert.Layout

end
-- ==== Proof.Payload.lean ====
/-
  The kernel body's arithmetic, read at one row.

  The body works on a block of 2048 rows.  Row `p` of its result depends on row `p` of the two row-blocked inputs (the
  flattened embeddings and the first-order term) and on the whole of every other input.  Each payload of the body is read
  here at row `p`: the three dense layers as sums over their contraction index, the normalisations entry by entry (their
  statistics are one-row matrices broadcast down the rows), the interaction term as a sum over the 16 coordinates of
  products of column-selected sums, and finally the logistic function of the three-term sum.  Put together, row `p` of the
  body's result is the `score` of that row.
-/
import proofs.«147037_j43757126812202_2_alg».proof.Proof.Gen.KernelIdeal.Skeleton
import proofs.«147037_j43757126812202_2_alg».proof.Proof.Model
import proofs.«147037_j43757126812202_2_alg».proof.Proof.LibMatmulRead
import proofs.«147037_j43757126812202_2_alg».proof.Proof.LibBroadcast
import Idealize.ShloMosaic.Lib.ValueLayout
import Idealize.ShloMosaic.Lib.Pipeline.Value

noncomputable section

namespace Cert.DeepFM.Body

open Idealize.ShloMosaic Idealize.ShloMosaic.ValueIdx Cert.KernelIdeal Cert.KernelIdeal.Gen Cert.DeepFM Cert.Contract

/-! ## The four matrix products of the body -/

/-- The first layer's product, `[2048, 416] · [416, 256]`, at `(p, j)`. -/
theorem mm_in {φ₁ φ₂ : FTy} (L : FVec Ideal S2048x416 φ₁) (R : FVec Ideal S416x256 φ₂) (p : Fin 2048) (j : Fin 256) :
    FloatOps.matmul dot_S2048x416_S416x256_S2048x256_1_0_0_1_n_n none L R (constant (F := Ideal) ⟨2, ![2048, 256]⟩ .f32 0x00000000#32) (ix2 p j)
      = ∑ k : Fin 416, L (ix2 p k) * R (ix2 k j) :=
  matmul_zero_ix2 dot_S2048x416_S416x256_S2048x256_1_0_0_1_n_n none rfl rfl
    (fun i q => by
      unfold DotDims.lhsIdx
      rw [dif_neg (show ¬(0 : Fin S2048x416.rank) ∈ dot_S2048x416_S416x256_S2048x256_1_0_0_1_n_n.lhsBatch by decide),
        dif_pos (show (0 : Fin S2048x416.rank) ∈ dot_S2048x416_S416x256_S2048x256_1_0_0_1_n_n.lhsNonContracting by decide)]
      rfl)
    (fun i q => dot_S2048x416_S416x256_S2048x256_1_0_0_1_n_n.lhsIdx_val_of_single rfl i q)
    (fun i q => dot_S2048x416_S416x256_S2048x256_1_0_0_1_n_n.rhsIdx_val_of_single rfl i q)
    (fun i q => by
      unfold DotDims.rhsIdx
      rw [dif_neg (show ¬(1 : Fin S416x256.rank) ∈ dot_S2048x416_S416x256_S2048x256_1_0_0_1_n_n.rhsBatch by decide),
        dif_pos (show (1 : Fin S416x256.rank) ∈ dot_S2048x416_S416x256_S2048x256_1_0_0_1_n_n.rhsNonContracting by decide)]
      rfl)
    L R p j

/-- The second layer's product, `[2048, 256] · [256, 128]`, at `(p, j)`. -/
theorem mm_mid {φ₁ φ₂ : FTy} (L : FVec Ideal S2048x256 φ₁) (R : FVec Ideal S256x128 φ₂) (p : Fin 2048) (j : Fin 128) :
    FloatOps.matmul dot_S2048x256_S256x128_S2048x128_1_0_0_1_n_n none L R (constant (F := Ideal) ⟨2, ![2048, 128]⟩ .f32 0x00000000#32) (ix2 p j)
      = ∑ k : Fin 256, L (ix2 p k) * R (ix2 k j) :=
  matmul_zero_ix2 dot_S2048x256_S256x128_S2048x128_1_0_0_1_n_n none rfl rfl
    (fun i q => by
      unfold DotDims.lhsIdx
      rw [dif_neg (show ¬(0 : Fin S2048x256.rank) ∈ dot_S2048x256_S256x128_S2048x128_1_0_0_1_n_n.lhsBatch by decide),
        dif_pos (show (0 : Fin S2048x256.rank) ∈ dot_S2048x256_S256x128_S2048x128_1_0_0_1_n_n.lhsNonContracting by decide)]
      rfl)
    (fun i q => dot_S2048x256_S256x128_S2048x128_1_0_0_1_n_n.lhsIdx_val_of_single rfl i q)
    (fun i q => dot_S2048x256_S256x128_S2048x128_1_0_0_1_n_n.rhsIdx_val_of_single rfl i q)
    (fun i q => by
      unfold DotDims.rhsIdx
      rw [dif_neg (show ¬(1 : Fin S256x128.rank) ∈ dot_S2048x256_S256x128_S2048x128_1_0_0_1_n_n.rhsBatch by decide),
        dif_pos (show (1 : Fin S256x128.rank) ∈ dot_S2048x256_S256x128_S2048x128_1_0_0_1_n_n.rhsNonContracting by decide)]
      rfl)
    L R p j

/-- The last layer's product, `[2048, 128] · [128, 1]`, at `(p, j)`. -/
theorem mm_out {φ₁ φ₂ : FTy} (L : FVec Ideal S2048x128 φ₁) (R : FVec Ideal S128x1 φ₂) (p : Fin 2048) (j : Fin 1) :
    FloatOps.matmul dot_S2048x128_S128x1_S2048x1_1_0_0_1_n_n none L R (constant (F := Ideal) ⟨2, ![2048, 1]⟩ .f32 0x00000000#32) (ix2 p j)
      = ∑ k : Fin 128, L (ix2 p k) * R (ix2 k j) :=
  matmul_zero_ix2 dot_S2048x128_S128x1_S2048x1_1_0_0_1_n_n none rfl rfl
    (fun i q => by
      unfold DotDims.lhsIdx
      rw [dif_neg (show ¬(0 : Fin S2048x128.rank) ∈ dot_S2048x128_S128x1_S2048x1_1_0_0_1_n_n.lhsBatch by decide),
        dif_pos (show (0 : Fin S2048x128.rank) ∈ dot_S2048x128_S128x1_S2048x1_1_0_0_1_n_n.lhsNonContracting by decide)]
      rfl)
    (fun i q => dot_S2048x128_S128x1_S2048x1_1_0_0_1_n_n.lhsIdx_val_of_single rfl i q)
    (fun i q => dot_S2048x128_S128x1_S2048x1_1_0_0_1_n_n.rhsIdx_val_of_single rfl i q)
    (fun i q => by
      unfold DotDims.rhsIdx
      rw [dif_neg (show ¬(1 : Fin S128x1.rank) ∈ dot_S2048x128_S128x1_S2048x1_1_0_0_1_n_n.rhsBatch by decide),
        dif_pos (show (1 : Fin S128x1.rank) ∈ dot_S2048x128_S128x1_S2048x1_1_0_0_1_n_n.rhsNonContracting by decide)]
      rfl)
    L R p j

/-- The column-selection product, `[2048, 416] · [416, 16]`, at `(p, d)`. -/
theorem mm_sel {φ₁ φ₂ : FTy} (L : FVec Ideal S2048x416 φ₁) (R : FVec Ideal S416x16 φ₂) (p : Fin 2048) (j : Fin 16) :
    FloatOps.matmul dot_S2048x416_S416x16_S2048x16_1_0_0_1_n_n none L R (constant (F := Ideal) ⟨2, ![2048, 16]⟩ .f32 0x00000000#32) (ix2 p j)
      = ∑ k : Fin 416, L (ix2 p k) * R (ix2 k j) :=
  matmul_zero_ix2 dot_S2048x416_S416x16_S2048x16_1_0_0_1_n_n none rfl rfl
    (fun i q => by
      unfold DotDims.lhsIdx
      rw [dif_neg (show ¬(0 : Fin S2048x416.rank) ∈ dot_S2048x416_S416x16_S2048x16_1_0_0_1_n_n.lhsBatch by decide),
        dif_pos (show (0 : Fin S2048x416.rank) ∈ dot_S2048x416_S416x16_S2048x16_1_0_0_1_n_n.lhsNonContracting by decide)]
      rfl)
    (fun i q => dot_S2048x416_S416x16_S2048x16_1_0_0_1_n_n.lhsIdx_val_of_single rfl i q)
    (fun i q => dot_S2048x416_S416x16_S2048x16_1_0_0_1_n_n.rhsIdx_val_of_single rfl i q)
    (fun i q => by
      unfold DotDims.rhsIdx
      rw [dif_neg (show ¬(1 : Fin S416x16.rank) ∈ dot_S2048x416_S416x16_S2048x16_1_0_0_1_n_n.rhsBatch by decide),
        dif_pos (show (1 : Fin S416x16.rank) ∈ dot_S2048x416_S416x16_S2048x16_1_0_0_1_n_n.rhsNonContracting by decide)]
      rfl)
    L R p j

/-! ## The sum along the 16 coordinates -/

/-- The sum of a `[2048, 16]` array along its second axis, at row `p`. -/
theorem laneSum_apply (src : FVec Ideal S2048x16 .f32) (p : Fin 2048) :
    multiReduction .add [1] S2048 src 0x00000000#32 reduces_S2048x16_S2048 (.inl rfl) rfl (ix1 p)
      = ∑ k : Fin 16, src (ix2 p k) := by
  refine (Ideal.multiReduction_add_single src 0x00000000#32 reduces_S2048x16_S2048 (.inl rfl) rfl (ix1 p)).trans ?_
  refine Finset.sum_congr rfl fun k _ => congrArg src (funext fun c => Fin.ext ?_)
  match c with
  | ⟨0, _⟩ => rfl
  | ⟨1, _⟩ => rfl

/-! ## Pointwise operations not read elsewhere -/

theorem rsqrt_apply {s : Shape} {φ : FTy} (a : FVec Ideal s φ) (i : s.Idx) : rsqrt a i = Ideal.rsqrt (a i) := rfl
theorem logistic_apply {s : Shape} {φ : FTy} (a : FVec Ideal s φ) (i : s.Idx) : logistic a i = Ideal.logistic (a i) := rfl

/-! ## The payloads at row `p` -/

/-- The block of flattened embeddings passes through unchanged. -/
theorem pay2_eq (X0 : FVec Ideal S2048x416 .bf16) : k0_pay2 (F := Ideal) X0 = X0 := by
  unfold k0_pay2
  exact shapeCast_self _ _

/-- The second layer's bias, a one-row matrix, broadcast down the rows. -/
theorem pay4_apply (X10 : FVec Ideal S1x128 .f32) (p : Fin 2048) (j : Fin 128) :
    k0_pay4 (F := Ideal) X10 (ix2 p j) = X10 (ix2 (0 : Fin 1) j) := by
  unfold k0_pay4
  simp only [shapeCast_self, broadcastTo_1b_ab_apply]

/-- Entry `k` of the first hidden layer of row `p`: the dense layer, normalised and clamped. -/
def hidden1 (X0 : FVec Ideal S2048x416 .bf16) (X3 : FVec Ideal S416x256 .bf16) (X4 X7 X8 X5 X6 : FVec Ideal S1x256 .f32)
    (p : Fin 2048) (k : Fin 256) : EReal :=
  normClamp epsW loW (dense (fun c => X0 (ix2 p c)) (fun c j => X3 (ix2 c j)) (fun j => X4 (ix2 (0 : Fin 1) j)) k)
    (X7 (ix2 (0 : Fin 1) k)) (X8 (ix2 (0 : Fin 1) k)) (X5 (ix2 (0 : Fin 1) k)) (X6 (ix2 (0 : Fin 1) k))

/-- The second layer's product at `(p, j)`: the first hidden layer of row `p` against column `j` of the weights. -/
theorem pay3_apply (X0 : FVec Ideal S2048x416 .bf16) (X3 : FVec Ideal S416x256 .bf16) (X4 X7 X8 X5 X6 : FVec Ideal S1x256 .f32)
    (X9 : FVec Ideal S256x128 .bf16) (p : Fin 2048) (j : Fin 128) :
    k0_pay3 (F := Ideal) X0 X3 X4 X7 X8 X5 X6 X9 (ix2 p j) = ∑ k : Fin 256, hidden1 X0 X3 X4 X7 X8 X5 X6 p k * X9 (ix2 k j) := by
  unfold k0_pay3
  simp only [pay2_eq, shapeCast_self, mm_mid, mm_in, truncf_apply, maximumf_apply, addf_apply, subf_apply, mulf_apply,
    broadcast_apply, broadcastTo_1b_ab_apply, rsqrt_apply]
  rfl

/-- The last layer at row `p`, from the second layer's pre-activation `v33 + v36`. -/
theorem pay5_apply (v33 v36 : FVec Ideal S2048x128 .f32) (X13 X14 X11 X12 : FVec Ideal S1x128 .f32)
    (X15 : FVec Ideal S128x1 .bf16) (X16 : FVec Ideal S1x1 .f32) (p : Fin 2048) :
    k0_pay5 (F := Ideal) v33 v36 X13 X14 X11 X12 X15 X16 (ix2 p (0 : Fin 1))
      = (∑ k : Fin 128, normClamp epsW loW (v33 (ix2 p k) + v36 (ix2 p k)) (X13 (ix2 (0 : Fin 1) k)) (X14 (ix2 (0 : Fin 1) k))
            (X11 (ix2 (0 : Fin 1) k)) (X12 (ix2 (0 : Fin 1) k)) * X15 (ix2 k (0 : Fin 1)))
        + X16 (ix2 (0 : Fin 1) (0 : Fin 1)) := by
  unfold k0_pay5
  simp only [shapeCast_self, mm_out, truncf_apply, maximumf_apply, addf_apply, subf_apply, mulf_apply,
    broadcast_apply, broadcastTo_1b_ab_apply, rsqrt_apply]
  rfl

/-- The interaction sum at row `p`: over the coordinates, the square of the selected sum minus the selected sum of squares. -/
theorem pay6_apply (v1 : FVec Ideal S2048x416 .bf16) (X2 : FVec Ideal S416x16 .bf16) (p : Fin 2048) :
    k0_pay6 (F := Ideal) v1 X2 (ix2 p (0 : Fin 1))
      = ∑ d : Fin 16, ((∑ c : Fin 416, v1 (ix2 p c) * X2 (ix2 c d)) * (∑ c : Fin 416, v1 (ix2 p c) * X2 (ix2 c d))
          - ∑ c : Fin 416, v1 (ix2 p c) * v1 (ix2 p c) * X2 (ix2 c d)) := by
  unfold k0_pay6
  refine (Cert.Layout.shapeCast_col_apply _ _ p).trans ?_
  refine (laneSum_apply _ p).trans ?_
  simp only [shapeCast_self, mm_sel, mulf_apply, subf_apply]

/-- The score at row `p` from the last layer's output, the interaction sum, one half and the first-order term. -/
theorem pay1_apply (v66 v75 : FVec Ideal S2048x1 .f32) (h : Ideal .f32) (X1 : FVec Ideal S2048x1 .f32) (p : Fin 2048) :
    k0_pay1 (F := Ideal) v66 v75 h X1 (ix2 p (0 : Fin 1))
      = Ideal.logistic (v66 (ix2 p (0 : Fin 1)) + X1 (ix2 p (0 : Fin 1)) + h * v75 (ix2 p (0 : Fin 1))) := by
  unfold k0_pay1
  simp only [shapeCast_self, logistic_apply, addf_apply, mulf_apply, broadcast_apply]

/-! ## Row `p` of the body's result is the score of row `p` -/

/-- Row `p` of what the body stores, as the `score` of row `p` of the embeddings block and of the first-order block,
    with the two per-coordinate sums taken through the selector `X2`. -/
theorem body_row (X0 : FVec Ideal S2048x416 .bf16) (X1 : FVec Ideal S2048x1 .f32) (X2 : FVec Ideal S416x16 .bf16)
    (X3 : FVec Ideal S416x256 .bf16) (X4 X5 X6 X7 X8 : FVec Ideal S1x256 .f32) (X9 : FVec Ideal S256x128 .bf16)
    (X10 X11 X12 X13 X14 : FVec Ideal S1x128 .f32) (X15 : FVec Ideal S128x1 .bf16) (X16 : FVec Ideal S1x1 .f32) (p : Fin 2048) :
    k0_pay1 (F := Ideal) (k0_pay5 (k0_pay3 X0 X3 X4 X7 X8 X5 X6 X9) (k0_pay4 X10) X13 X14 X11 X12 X15 X16) (k0_pay6 (k0_pay2 X0) X2)
        (Scalar.ofBits .f32 0x3F000000#32) X1 (ix2 p (0 : Fin 1))
      = score epsW loW halfW (fun c => X0 (ix2 p c))
          (fun d => ∑ c : Fin 416, X0 (ix2 p c) * X2 (ix2 c d))
          (fun d => ∑ c : Fin 416, X0 (ix2 p c) * X0 (ix2 p c) * X2 (ix2 c d))
          (X1 (ix2 p (0 : Fin 1)))
          (fun c j => X3 (ix2 c j)) (fun j => X4 (ix2 (0 : Fin 1) j)) (fun j => X5 (ix2 (0 : Fin 1) j)) (fun j => X6 (ix2 (0 : Fin 1) j))
          (fun j => X7 (ix2 (0 : Fin 1) j)) (fun j => X8 (ix2 (0 : Fin 1) j))
          (fun c j => X9 (ix2 c j)) (fun j => X10 (ix2 (0 : Fin 1) j)) (fun j => X11 (ix2 (0 : Fin 1) j)) (fun j => X12 (ix2 (0 : Fin 1) j))
          (fun j => X13 (ix2 (0 : Fin 1) j)) (fun j => X14 (ix2 (0 : Fin 1) j))
          (fun c j => X15 (ix2 c j)) (fun j => X16 (ix2 (0 : Fin 1) j)) := by
  rw [pay1_apply, pay5_apply, pay6_apply, pay2_eq]
  simp only [pay3_apply, pay4_apply]
  rfl

end Cert.DeepFM.Body

end
-- ==== Proof.Selector.lean ====
/-
  The integer mask under the 0/1 column selector.

  The host numbers the 416 columns, takes each number modulo 16 (a remainder followed by the sign fix-up of a floored
  modulus, which never fires for these non-negative numbers), and compares it with the coordinate number 0 … 15.  The mask
  is therefore set at `(k, d)` exactly when `k % 16 = d`; this is decided entry by entry over the 416 × 16 entries.
-/
import proofs.«147037_j43757126812202_2_alg».proof.KernelIdeal
import proofs.«147037_j43757126812202_2_alg».proof.Proof.Gen.KernelIdeal
import Idealize.ShloMosaic.Lib.ValueIdx

noncomputable section

namespace Cert.DeepFM.Host

open Idealize.ShloMosaic Cert.KernelIdeal Cert.KernelIdeal.Gen Idealize.ShloMosaic.ValueIdx

/-- The column number modulo 16, as the host computes it (a remainder with the sign fix-up of a floored modulus). -/
def colMod : IVec S416 32 :=
  let dv : IVec S_ 32 := select (cmpi .eq (id (constantI S_ 32 16#32)) (constantI S_ 32 0#32)) (constantI S_ 32 1#32) (id (constantI S_ 32 16#32))
  let q : IVec S416 32 := Host.remsi (iotaInDim S416 32 0) (broadcastInDim S416 ![] bcast_S_S416 dv)
  select
    (andi
      (cmpi .ne (cmpi .slt q (broadcastInDim S416 ![] bcast_S_S416 (constantI S_ 32 0#32)))
        (broadcastInDim S416 ![] bcast_S_S416 (cmpi .slt dv (constantI S_ 32 0#32))))
      (cmpi .ne q (broadcastInDim S416 ![] bcast_S_S416 (constantI S_ 32 0#32))))
    (addi q (broadcastInDim S416 ![] bcast_S_S416 dv)) q

/-- The integer mask under the selector: column number modulo 16 against the coordinate number. -/
def selMask : IVec S416x16 1 :=
  cmpi .eq
    (broadcastInDim S416x16 ![0, 1] bcast_S416x1_S416x16_0_1 (broadcastInDim S416x1 ![0] bcast_S416_S416x1_0 colMod))
    (broadcastInDim S416x16 ![0, 1] bcast_S1x16_S416x16_0_1 (iotaInDim S1x16 32 1))

set_option maxHeartbeats 8000000 in
/-- The mask is set exactly where the column number is congruent to the coordinate number (decided entry by entry). -/
theorem selMask_apply : ∀ (k : Fin 416) (d : Fin 16), selMask (ix2 k d) = if k.val % 16 = d.val then 1#1 else 0#1 := by
  decide +kernel

end Cert.DeepFM.Host

end
-- ==== Proof.HostArrays.lean ====
/-
  What the region finds in the three computed input arrays.

  Before the region the host gathers the embeddings and the first-order weights, sums the latter over the features, flattens
  the former to rows of 416 columns, and builds the 0/1 column selector.  The gather and the first-order sum are the same
  operations of the same arguments as the reference's, so they are carried as the reference's own stage terms and never
  opened.  The flattened row holds feature `c / 16` at coordinate `c % 16` in column `c`.  The selector's entry `(c, d)`
  is one exactly when `c % 16 = d`: the integer mask under it is decided over its 416 × 16 entries.
-/
import proofs.«147037_j43757126812202_2_alg».proof.Proof.Gen.KernelIdeal.Frame
import proofs.«147037_j43757126812202_2_alg».proof.Proof.Gen.ReferenceIdeal.Read
import proofs.«147037_j43757126812202_2_alg».proof.Proof.Model
import proofs.«147037_j43757126812202_2_alg».proof.Proof.Selector
import Idealize.ShloMosaic.Lib.StableHlo.Run
import Idealize.ShloMosaic.Lib.ValueLayout
import Idealize.ShloMosaic.Lib.Pipeline.Value
import Idealize.ShloMosaic.PureOps.Ideal

noncomputable section

namespace Cert.DeepFM.Host

open Idealize.ShloMosaic Idealize.SL.Sem Cert.KernelIdeal Cert.KernelIdeal.Gen Idealize.ShloMosaic.TcCoe Idealize.ShloMosaic.StableHlo
  Idealize.ShloMosaic.ValueIdx Cert.DeepFM

variable (m : (ℓ : Loc nD τ sig) → Buf (Elt Ideal) ℓ) (c : Dev nD)

/-- Opens the contents of a buffer as the region finds it: the host operations before the region, applied in order. -/
local macro "host_ops" : tactic =>
  `(tactic| (dsimp only [Gen.V]
             simp only [Gen.hostOps0, Gen.hostOps0_1, Gen.hostOps0_2, Gen.hostOps0_3, List.flatten_cons, List.flatten_nil,
               List.append_nil, List.cons_append, List.nil_append]
             after_results_simp))

/-- The gathered embeddings, `[16384, 26, 16]`: the reference's stage term, of the kernel's own arguments. -/
abbrev gathered : S16384x26x16.Idx → EReal :=
  Cert.ReferenceIdeal.Read.val_main_v31 (F := Ideal) (m ((c : Thread nD τ).loc main_arg0)) (m ((c : Thread nD τ).loc main_arg2))

/-- The first-order term, `[16384, 1]`: the reference's stage term, of the kernel's own arguments. -/
abbrev firstOrder : S16384x1.Idx → EReal :=
  Cert.ReferenceIdeal.Read.val_main_v34 (F := Ideal) (m ((c : Thread nD τ).loc main_arg0)) (m ((c : Thread nD τ).loc main_arg1))

set_option maxHeartbeats 8000000 in
/-- The embeddings array the region finds: the gathered embeddings re-laid as rows of 416 columns. -/
theorem emb_eq : (V (F := Ideal) m c main_v36 : S16384x416.Idx → EReal)
    = (truncf (F := Ideal) .bf16 (shapeCast S16384x416 (gathered m c) shapeCasts_S16384x26x16_S16384x416) bitsLt_bf16_f32 : S16384x416.Idx → EReal) := by
  host_ops
  rfl

/-- Column `k` of row `r` holds feature `k / 16` at coordinate `k % 16`. -/
theorem emb_apply (r : Fin 16384) (k : Fin 416) :
    V (F := Ideal) m c main_v36 (ix2 r k) = gathered m c (ix3 r (featOf k) (coordOf k)) := by
  refine (congrFun (emb_eq m c) (ix2 r k)).trans ?_
  refine shapeCast_apply (gathered m c) shapeCasts_S16384x26x16_S16384x416 (ix2 r k) (ix3 r (featOf k) (coordOf k)) ?_
  rw [Shape.rowMajor_val_three, Shape.rowMajor_val_two]
  have hr := r.isLt
  have hk := k.isLt
  show (r.val * 26 + k.val / 16) * 16 + k.val % 16 = r.val * 416 + k.val
  omega

set_option maxHeartbeats 8000000 in
/-- The first-order array the region finds. -/
theorem first_eq : (V (F := Ideal) m c main_v34 : S16384x1.Idx → EReal) = firstOrder m c := by
  host_ops
  rfl

/-! ## The column selector -/

set_option maxHeartbeats 8000000 in
/-- The selector array the region finds is that mask, read as a float. -/
theorem sel_eq : (V (F := Ideal) m c main_v39 : S416x16.Idx → EReal) = (uitofp (F := Ideal) .bf16 selMask : S416x16.Idx → EReal) := by
  host_ops
  rfl

/-- The selector's entry `(k, d)`: one when `k % 16 = d`, zero otherwise. -/
theorem sel_apply (k : Fin 416) (d : Fin 16) :
    (V (F := Ideal) m c main_v39 : S416x16.Idx → EReal) (ix2 k d) = if k.val % 16 = d.val then (1 : EReal) else 0 := by
  refine (congrFun (sel_eq m c) (ix2 k d)).trans ?_
  show (((selMask (ix2 k d)).toNat : ℝ) : EReal) = _
  rw [selMask_apply k d]
  by_cases h : k.val % 16 = d.val
  · rw [if_pos h, if_pos h]; simp
  · rw [if_neg h, if_neg h]; simp

end Cert.DeepFM.Host

end
-- ==== Proof.HostParams.lean ====
/-
  What the region finds in the parameter arrays.

  The vectors of biases and statistics reach the region re-laid as one-row matrices: entry `(0, j)` is entry `j` of the
  argument.  The three weight matrices reach it through a change of float format, which is the identity on the extended
  reals: every entry is the argument's entry.
-/
import proofs.«147037_j43757126812202_2_alg».proof.Proof.Gen.KernelIdeal.Frame
import proofs.«147037_j43757126812202_2_alg».proof.Proof.Gen.ReferenceIdeal.Read
import proofs.«147037_j43757126812202_2_alg».proof.Proof.Model
import Idealize.ShloMosaic.Lib.StableHlo.Run
import Idealize.ShloMosaic.Lib.ValueLayout
import Idealize.ShloMosaic.Lib.Pipeline.Value
import Idealize.ShloMosaic.PureOps.Ideal

noncomputable section

namespace Cert.DeepFM.Host

open Idealize.ShloMosaic Idealize.SL.Sem Cert.KernelIdeal Cert.KernelIdeal.Gen Idealize.ShloMosaic.TcCoe Idealize.ShloMosaic.StableHlo
  Idealize.ShloMosaic.ValueIdx Cert.DeepFM

variable (m : (ℓ : Loc nD τ sig) → Buf (Elt Ideal) ℓ) (c : Dev nD)

/-- Opens the contents of a buffer as the region finds it: the host operations before the region, applied in order. -/
local macro "host_ops" : tactic =>
  `(tactic| (dsimp only [Gen.V]
             simp only [Gen.hostOps0, Gen.hostOps0_1, Gen.hostOps0_2, Gen.hostOps0_3, List.flatten_cons, List.flatten_nil,
               List.append_nil, List.cons_append, List.nil_append]
             after_results_simp))

set_option maxHeartbeats 8000000 in
/-- Argument 4, a vector of length 256, as the one-row matrix the region finds. -/
theorem row_v40 (j : Fin 256) :
    V (F := Ideal) m c main_v40 (ix2 (0 : Fin 1) j) = m ((c : Thread nD τ).loc main_arg4) (ix1 j) := by
  have e : (V (F := Ideal) m c main_v40 : S1x256.Idx → EReal)
      = shapeCast S1x256 (m ((c : Thread nD τ).loc main_arg4) : S256.Idx → EReal) shapeCasts_S256_S1x256 := by
    host_ops
    rfl
  exact (congrFun e (ix2 (0 : Fin 1) j)).trans (shapeCast_a_1a_apply _ shapeCasts_S256_S1x256 (0 : Fin 1) j)

set_option maxHeartbeats 8000000 in
/-- Argument 5, a vector of length 256, as the one-row matrix the region finds. -/
theorem row_v41 (j : Fin 256) :
    V (F := Ideal) m c main_v41 (ix2 (0 : Fin 1) j) = m ((c : Thread nD τ).loc main_arg5) (ix1 j) := by
  have e : (V (F := Ideal) m c main_v41 : S1x256.Idx → EReal)
      = shapeCast S1x256 (m ((c : Thread nD τ).loc main_arg5) : S256.Idx → EReal) shapeCasts_S256_S1x256 := by
    host_ops
    rfl
  exact (congrFun e (ix2 (0 : Fin 1) j)).trans (shapeCast_a_1a_apply _ shapeCasts_S256_S1x256 (0 : Fin 1) j)

set_option maxHeartbeats 8000000 in
/-- Argument 6, a vector of length 256, as the one-row matrix the region finds. -/
theorem row_v42 (j : Fin 256) :
    V (F := Ideal) m c main_v42 (ix2 (0 : Fin 1) j) = m ((c : Thread nD τ).loc main_arg6) (ix1 j) := by
  have e : (V (F := Ideal) m c main_v42 : S1x256.Idx → EReal)
      = shapeCast S1x256 (m ((c : Thread nD τ).loc main_arg6) : S256.Idx → EReal) shapeCasts_S256_S1x256 := by
    host_ops
    rfl
  exact (congrFun e (ix2 (0 : Fin 1) j)).trans (shapeCast_a_1a_apply _ shapeCasts_S256_S1x256 (0 : Fin 1) j)

set_option maxHeartbeats 8000000 in
/-- Argument 7, a vector of length 256, as the one-row matrix the region finds. -/
theorem row_v43 (j : Fin 256) :
    V (F := Ideal) m c main_v43 (ix2 (0 : Fin 1) j) = m ((c : Thread nD τ).loc main_arg7) (ix1 j) := by
  have e : (V (F := Ideal) m c main_v43 : S1x256.Idx → EReal)
      = shapeCast S1x256 (m ((c : Thread nD τ).loc main_arg7) : S256.Idx → EReal) shapeCasts_S256_S1x256 := by
    host_ops
    rfl
  exact (congrFun e (ix2 (0 : Fin 1) j)).trans (shapeCast_a_1a_apply _ shapeCasts_S256_S1x256 (0 : Fin 1) j)

set_option maxHeartbeats 8000000 in
/-- Argument 8, a vector of length 256, as the one-row matrix the region finds. -/
theorem row_v44 (j : Fin 256) :
    V (F := Ideal) m c main_v44 (ix2 (0 : Fin 1) j) = m ((c : Thread nD τ).loc main_arg8) (ix1 j) := by
  have e : (V (F := Ideal) m c main_v44 : S1x256.Idx → EReal)
      = shapeCast S1x256 (m ((c : Thread nD τ).loc main_arg8) : S256.Idx → EReal) shapeCasts_S256_S1x256 := by
    host_ops
    rfl
  exact (congrFun e (ix2 (0 : Fin 1) j)).trans (shapeCast_a_1a_apply _ shapeCasts_S256_S1x256 (0 : Fin 1) j)

set_option maxHeartbeats 8000000 in
/-- Argument 10, a vector of length 128, as the one-row matrix the region finds. -/
theorem row_v45 (j : Fin 128) :
    V (F := Ideal) m c main_v45 (ix2 (0 : Fin 1) j) = m ((c : Thread nD τ).loc main_arg10) (ix1 j) := by
  have e : (V (F := Ideal) m c main_v45 : S1x128.Idx → EReal)
      = shapeCast S1x128 (m ((c : Thread nD τ).loc main_arg10) : S128.Idx → EReal) shapeCasts_S128_S1x128 := by
    host_ops
    rfl
  exact (congrFun e (ix2 (0 : Fin 1) j)).trans (shapeCast_a_1a_apply _ shapeCasts_S128_S1x128 (0 : Fin 1) j)

set_option maxHeartbeats 8000000 in
/-- Argument 11, a vector of length 128, as the one-row matrix the region finds. -/
theorem row_v46 (j : Fin 128) :
    V (F := Ideal) m c main_v46 (ix2 (0 : Fin 1) j) = m ((c : Thread nD τ).loc main_arg11) (ix1 j) := by
  have e : (V (F := Ideal) m c main_v46 : S1x128.Idx → EReal)
      = shapeCast S1x128 (m ((c : Thread nD τ).loc main_arg11) : S128.Idx → EReal) shapeCasts_S128_S1x128 := by
    host_ops
    rfl
  exact (congrFun e (ix2 (0 : Fin 1) j)).trans (shapeCast_a_1a_apply _ shapeCasts_S128_S1x128 (0 : Fin 1) j)

set_option maxHeartbeats 8000000 in
/-- Argument 12, a vector of length 128, as the one-row matrix the region finds. -/
theorem row_v47 (j : Fin 128) :
    V (F := Ideal) m c main_v47 (ix2 (0 : Fin 1) j) = m ((c : Thread nD τ).loc main_arg12) (ix1 j) := by
  have e : (V (F := Ideal) m c main_v47 : S1x128.Idx → EReal)
      = shapeCast S1x128 (m ((c : Thread nD τ).loc main_arg12) : S128.Idx → EReal) shapeCasts_S128_S1x128 := by
    host_ops
    rfl
  exact (congrFun e (ix2 (0 : Fin 1) j)).trans (shapeCast_a_1a_apply _ shapeCasts_S128_S1x128 (0 : Fin 1) j)

set_option maxHeartbeats 8000000 in
/-- Argument 13, a vector of length 128, as the one-row matrix the region finds. -/
theorem row_v48 (j : Fin 128) :
    V (F := Ideal) m c main_v48 (ix2 (0 : Fin 1) j) = m ((c : Thread nD τ).loc main_arg13) (ix1 j) := by
  have e : (V (F := Ideal) m c main_v48 : S1x128.Idx → EReal)
      = shapeCast S1x128 (m ((c : Thread nD τ).loc main_arg13) : S128.Idx → EReal) shapeCasts_S128_S1x128 := by
    host_ops
    rfl
  exact (congrFun e (ix2 (0 : Fin 1) j)).trans (shapeCast_a_1a_apply _ shapeCasts_S128_S1x128 (0 : Fin 1) j)

set_option maxHeartbeats 8000000 in
/-- Argument 14, a vector of length 128, as the one-row matrix the region finds. -/
theorem row_v49 (j : Fin 128) :
    V (F := Ideal) m c main_v49 (ix2 (0 : Fin 1) j) = m ((c : Thread nD τ).loc main_arg14) (ix1 j) := by
  have e : (V (F := Ideal) m c main_v49 : S1x128.Idx → EReal)
      = shapeCast S1x128 (m ((c : Thread nD τ).loc main_arg14) : S128.Idx → EReal) shapeCasts_S128_S1x128 := by
    host_ops
    rfl
  exact (congrFun e (ix2 (0 : Fin 1) j)).trans (shapeCast_a_1a_apply _ shapeCasts_S128_S1x128 (0 : Fin 1) j)

set_option maxHeartbeats 8000000 in
/-- Argument 16, a vector of length 1, as the one-row matrix the region finds. -/
theorem row_v50 (j : Fin 1) :
    V (F := Ideal) m c main_v50 (ix2 (0 : Fin 1) j) = m ((c : Thread nD τ).loc main_arg16) (ix1 j) := by
  have e : (V (F := Ideal) m c main_v50 : S1x1.Idx → EReal)
      = shapeCast S1x1 (m ((c : Thread nD τ).loc main_arg16) : S1.Idx → EReal) shapeCasts_S1_S1x1 := by
    host_ops
    rfl
  exact (congrFun e (ix2 (0 : Fin 1) j)).trans (shapeCast_a_1a_apply _ shapeCasts_S1_S1x1 (0 : Fin 1) j)

set_option maxHeartbeats 8000000 in
/-- Argument 3, a weight matrix, as the region finds it: entry for entry the argument. -/
theorem mat_v51 (i : S416x256.Idx) :
    V (F := Ideal) m c main_v51 i = m ((c : Thread nD τ).loc main_arg3) i := by
  have e : (V (F := Ideal) m c main_v51 : S416x256.Idx → EReal)
      = (truncf (F := Ideal) .bf16 (m ((c : Thread nD τ).loc main_arg3) : S416x256.Idx → EReal) bitsLt_bf16_f32 : S416x256.Idx → EReal) := by
    host_ops
  exact congrFun e i

set_option maxHeartbeats 8000000 in
/-- Argument 9, a weight matrix, as the region finds it: entry for entry the argument. -/
theorem mat_v52 (i : S256x128.Idx) :
    V (F := Ideal) m c main_v52 i = m ((c : Thread nD τ).loc main_arg9) i := by
  have e : (V (F := Ideal) m c main_v52 : S256x128.Idx → EReal)
      = (truncf (F := Ideal) .bf16 (m ((c : Thread nD τ).loc main_arg9) : S256x128.Idx → EReal) bitsLt_bf16_f32 : S256x128.Idx → EReal) := by
    host_ops
  exact congrFun e i

set_option maxHeartbeats 8000000 in
/-- Argument 15, a weight matrix, as the region finds it: entry for entry the argument. -/
theorem mat_v53 (i : S128x1.Idx) :
    V (F := Ideal) m c main_v53 i = m ((c : Thread nD τ).loc main_arg15) i := by
  have e : (V (F := Ideal) m c main_v53 : S128x1.Idx → EReal)
      = (truncf (F := Ideal) .bf16 (m ((c : Thread nD τ).loc main_arg15) : S128x1.Idx → EReal) bitsLt_bf16_f32 : S128x1.Idx → EReal) := by
    host_ops
  exact congrFun e i

end Cert.DeepFM.Host

end
-- ==== Proof.BlocksIdx.lean ====
/-
  Where each window's block sits.

  The grid has 8 points; point `t` reads rows `2048 t … 2048 t + 2047` of the embeddings and of the first-order term and
  writes the same rows of the result; every other input has one block, its whole array.  Each input window's block at a
  point is therefore its array read at those rows (or read whole).
-/
import proofs.«147037_j43757126812202_2_alg».proof.Proof.Gen.KernelIdeal.Value
import proofs.«147037_j43757126812202_2_alg».proof.Proof.Payload
import proofs.«147037_j43757126812202_2_alg».proof.Proof.HostArrays
import proofs.«147037_j43757126812202_2_alg».proof.Proof.HostParams
import proofs.«147037_j43757126812202_2_alg».proof.Proof.SelectSum
import proofs.«147037_j43757126812202_2_alg».proof.Proof.Model
import Idealize.ShloMosaic.Lib.Pipeline.Value

noncomputable section

namespace Cert.DeepFM.Blocks

open Idealize.ShloMosaic Idealize.SL.Sem Cert.KernelIdeal Cert.KernelIdeal.Gen Idealize.ShloMosaic.TcCoe Idealize.ShloMosaic.ValueIdx Cert.DeepFM
open Idealize.ShloMosaic.Pipeline (Dat)

variable (m : (ℓ : Loc nD τ sig) → Buf (Elt Ideal) ℓ) (c : Dev nD)

/-! ## Where each window's block sits, decided over the 8 grid points -/

theorem grid_lt (t : Fin cfg0.N) : t.val < 8 := lt_of_lt_of_eq t.isLt N_0

/-- Window 0: block `t` along the rows, the one block along the columns. -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Window 1: block `t` along the rows, the one block along the columns. -/
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Window 2: always its one block. -/
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- Window 3: always its one block. -/
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- Window 4: always its one block. -/
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- Window 5: always its one block. -/
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-- Window 6: always its one block. -/
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

/-- Window 7: always its one block. -/
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

/-- Window 8: always its one block. -/
theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)

/-- Window 9: always its one block. -/
theorem idx9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)

/-- Window 10: always its one block. -/
theorem idx10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)

/-- Window 11: always its one block. -/
theorem idx11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)

/-- Window 12: always its one block. -/
theorem idx12 : ∀ t : Fin cfg0.N, win0_12.index t (0 : Fin 2) = 0 ∧ win0_12.index t (1 : Fin 2) = 0 :=
  (by decide +kernel : ∀ t : Fin grid0.N, win0_12.index t (0 : Fin 2) = 0 ∧ win0_12.index t (1 : Fin 2) = 0)

/-- Window 13: always its one block. -/
theorem idx13 : ∀ t : Fin cfg0.N, win0_13.index t (0 : Fin 2) = 0 ∧ win0_13.index t (1 : Fin 2) = 0 :=
  (by decide +kernel : ∀ t : Fin grid0.N, win0_13.index t (0 : Fin 2) = 0 ∧ win0_13.index t (1 : Fin 2) = 0)

/-- Window 14: always its one block. -/
theorem idx14 : ∀ t : Fin cfg0.N, win0_14.index t (0 : Fin 2) = 0 ∧ win0_14.index t (1 : Fin 2) = 0 :=
  (by decide +kernel : ∀ t : Fin grid0.N, win0_14.index t (0 : Fin 2) = 0 ∧ win0_14.index t (1 : Fin 2) = 0)

/-- Window 15: always its one block. -/
theorem idx15 : ∀ t : Fin cfg0.N, win0_15.index t (0 : Fin 2) = 0 ∧ win0_15.index t (1 : Fin 2) = 0 :=
  (by decide +kernel : ∀ t : Fin grid0.N, win0_15.index t (0 : Fin 2) = 0 ∧ win0_15.index t (1 : Fin 2) = 0)

/-- Window 16: always its one block. -/
theorem idx16 : ∀ t : Fin cfg0.N, win0_16.index t (0 : Fin 2) = 0 ∧ win0_16.index t (1 : Fin 2) = 0 :=
  (by decide +kernel : ∀ t : Fin grid0.N, win0_16.index t (0 : Fin 2) = 0 ∧ win0_16.index t (1 : Fin 2) = 0)

/-- Window 17: block `t` along the rows, the one block along the columns. -/
theorem idx17 : ∀ t : Fin cfg0.N, win0_17.index t (0 : Fin 2) = t.val ∧ win0_17.index t (1 : Fin 2) = 0 :=
  (by decide +kernel : ∀ t : Fin grid0.N, win0_17.index t (0 : Fin 2) = t.val ∧ win0_17.index t (1 : Fin 2) = 0)

/-- The row of the batch that row `p` of block `t` is. -/
def rowAt (t : Fin cfg0.N) (p : Fin 2048) : Fin 16384 :=
  ⟨t.val * 2048 + p.val, by have := grid_lt t; have := p.isLt; omega⟩

/-! ## Each input window's block, read off its array -/

/-- Row `p` of block `t` of window 0 is row `2048 t + p` of its array. -/
theorem blk0 (t : Fin cfg0.N) (p : Fin 2048) (k : Fin 416) :
    iblk (F := Ideal) m c 0 t (ix2 p k) = V (F := Ideal) m c main_v36 (ix2 (rowAt t p) k) := by
  obtain ⟨e0, e1⟩ := idx0 t
  show V (F := Ideal) m c main_v36 (((cfg0.win 0).blk t).view.emb (ix2 p k)) = _
  refine congrArg (fun i => V (F := Ideal) m c main_v36 i) (funext fun a => Fin.ext ?_)
  match a with
  | ⟨0, _⟩ => show win0_0.index t (0 : Fin 2) * 2048 + 1 * p.val = t.val * 2048 + p.val; omega
  | ⟨1, _⟩ => show win0_0.index t (1 : Fin 2) * 416 + 1 * k.val = k.val; omega

/-- Row `p` of block `t` of window 1 is row `2048 t + p` of its array. -/
theorem blk1 (t : Fin cfg0.N) (p : Fin 2048) (k : Fin 1) :
    iblk (F := Ideal) m c 1 t (ix2 p k) = V (F := Ideal) m c main_v34 (ix2 (rowAt t p) k) := by
  obtain ⟨e0, e1⟩ := idx1 t
  show V (F := Ideal) m c main_v34 (((cfg0.win 1).blk t).view.emb (ix2 p k)) = _
  refine congrArg (fun i => V (F := Ideal) m c main_v34 i) (funext fun a => Fin.ext ?_)
  match a with
  | ⟨0, _⟩ => show win0_1.index t (0 : Fin 2) * 2048 + 1 * p.val = t.val * 2048 + p.val; omega
  | ⟨1, _⟩ => show win0_1.index t (1 : Fin 2) * 1 + 1 * k.val = k.val; omega

/-- The one block of window 2 is its whole array. -/
theorem blk2 (t : Fin cfg0.N) (y : S416x16.Idx) :
    iblk (F := Ideal) m c 2 t y = V (F := Ideal) m c main_v39 y := by
  obtain ⟨e0, e1⟩ := idx2 t
  show V (F := Ideal) m c main_v39 (((cfg0.win 2).blk t).view.emb y) = _
  refine congrArg (fun i => V (F := Ideal) m c main_v39 i) (funext fun a => Fin.ext ?_)
  match a with
  | ⟨0, _⟩ => show win0_2.index t (0 : Fin 2) * 416 + 1 * (y 0).val = (y 0).val; omega
  | ⟨1, _⟩ => show win0_2.index t (1 : Fin 2) * 16 + 1 * (y 1).val = (y 1).val; omega

/-- The one block of window 3 is its whole array. -/
theorem blk3 (t : Fin cfg0.N) (y : S416x256.Idx) :
    iblk (F := Ideal) m c 3 t y = V (F := Ideal) m c main_v51 y := by
  obtain ⟨e0, e1⟩ := idx3 t
  show V (F := Ideal) m c main_v51 (((cfg0.win 3).blk t).view.emb y) = _
  refine congrArg (fun i => V (F := Ideal) m c main_v51 i) (funext fun a => Fin.ext ?_)
  match a with
  | ⟨0, _⟩ => show win0_3.index t (0 : Fin 2) * 416 + 1 * (y 0).val = (y 0).val; omega
  | ⟨1, _⟩ => show win0_3.index t (1 : Fin 2) * 256 + 1 * (y 1).val = (y 1).val; omega

/-- The one block of window 4 is its whole array. -/
theorem blk4 (t : Fin cfg0.N) (y : S1x256.Idx) :
    iblk (F := Ideal) m c 4 t y = V (F := Ideal) m c main_v40 y := by
  obtain ⟨e0, e1⟩ := idx4 t
  show V (F := Ideal) m c main_v40 (((cfg0.win 4).blk t).view.emb y) = _
  refine congrArg (fun i => V (F := Ideal) m c main_v40 i) (funext fun a => Fin.ext ?_)
  match a with
  | ⟨0, _⟩ => show win0_4.index t (0 : Fin 2) * 1 + 1 * (y 0).val = (y 0).val; omega
  | ⟨1, _⟩ => show win0_4.index t (1 : Fin 2) * 256 + 1 * (y 1).val = (y 1).val; omega

/-- The one block of window 5 is its whole array. -/
theorem blk5 (t : Fin cfg0.N) (y : S1x256.Idx) :
    iblk (F := Ideal) m c 5 t y = V (F := Ideal) m c main_v41 y := by
  obtain ⟨e0, e1⟩ := idx5 t
  show V (F := Ideal) m c main_v41 (((cfg0.win 5).blk t).view.emb y) = _
  refine congrArg (fun i => V (F := Ideal) m c main_v41 i) (funext fun a => Fin.ext ?_)
  match a with
  | ⟨0, _⟩ => show win0_5.index t (0 : Fin 2) * 1 + 1 * (y 0).val = (y 0).val; omega
  | ⟨1, _⟩ => show win0_5.index t (1 : Fin 2) * 256 + 1 * (y 1).val = (y 1).val; omega

/-- The one block of window 6 is its whole array. -/
theorem blk6 (t : Fin cfg0.N) (y : S1x256.Idx) :
    iblk (F := Ideal) m c 6 t y = V (F := Ideal) m c main_v42 y := by
  obtain ⟨e0, e1⟩ := idx6 t
  show V (F := Ideal) m c main_v42 (((cfg0.win 6).blk t).view.emb y) = _
  refine congrArg (fun i => V (F := Ideal) m c main_v42 i) (funext fun a => Fin.ext ?_)
  match a with
  | ⟨0, _⟩ => show win0_6.index t (0 : Fin 2) * 1 + 1 * (y 0).val = (y 0).val; omega
  | ⟨1, _⟩ => show win0_6.index t (1 : Fin 2) * 256 + 1 * (y 1).val = (y 1).val; omega

/-- The one block of window 7 is its whole array. -/
theorem blk7 (t : Fin cfg0.N) (y : S1x256.Idx) :
    iblk (F := Ideal) m c 7 t y = V (F := Ideal) m c main_v43 y := by
  obtain ⟨e0, e1⟩ := idx7 t
  show V (F := Ideal) m c main_v43 (((cfg0.win 7).blk t).view.emb y) = _
  refine congrArg (fun i => V (F := Ideal) m c main_v43 i) (funext fun a => Fin.ext ?_)
  match a with
  | ⟨0, _⟩ => show win0_7.index t (0 : Fin 2) * 1 + 1 * (y 0).val = (y 0).val; omega
  | ⟨1, _⟩ => show win0_7.index t (1 : Fin 2) * 256 + 1 * (y 1).val = (y 1).val; omega

/-- The one block of window 8 is its whole array. -/
theorem blk8 (t : Fin cfg0.N) (y : S1x256.Idx) :
    iblk (F := Ideal) m c 8 t y = V (F := Ideal) m c main_v44 y := by
  obtain ⟨e0, e1⟩ := idx8 t
  show V (F := Ideal) m c main_v44 (((cfg0.win 8).blk t).view.emb y) = _
  refine congrArg (fun i => V (F := Ideal) m c main_v44 i) (funext fun a => Fin.ext ?_)
  match a with
  | ⟨0, _⟩ => show win0_8.index t (0 : Fin 2) * 1 + 1 * (y 0).val = (y 0).val; omega
  | ⟨1, _⟩ => show win0_8.index t (1 : Fin 2) * 256 + 1 * (y 1).val = (y 1).val; omega

/-- The one block of window 9 is its whole array. -/
theorem blk9 (t : Fin cfg0.N) (y : S256x128.Idx) :
    iblk (F := Ideal) m c 9 t y = V (F := Ideal) m c main_v52 y := by
  obtain ⟨e0, e1⟩ := idx9 t
  show V (F := Ideal) m c main_v52 (((cfg0.win 9).blk t).view.emb y) = _
  refine congrArg (fun i => V (F := Ideal) m c main_v52 i) (funext fun a => Fin.ext ?_)
  match a with
  | ⟨0, _⟩ => show win0_9.index t (0 : Fin 2) * 256 + 1 * (y 0).val = (y 0).val; omega
  | ⟨1, _⟩ => show win0_9.index t (1 : Fin 2) * 128 + 1 * (y 1).val = (y 1).val; omega

/-- The one block of window 10 is its whole array. -/
theorem blk10 (t : Fin cfg0.N) (y : S1x128.Idx) :
    iblk (F := Ideal) m c 10 t y = V (F := Ideal) m c main_v45 y := by
  obtain ⟨e0, e1⟩ := idx10 t
  show V (F := Ideal) m c main_v45 (((cfg0.win 10).blk t).view.emb y) = _
  refine congrArg (fun i => V (F := Ideal) m c main_v45 i) (funext fun a => Fin.ext ?_)
  match a with
  | ⟨0, _⟩ => show win0_10.index t (0 : Fin 2) * 1 + 1 * (y 0).val = (y 0).val; omega
  | ⟨1, _⟩ => show win0_10.index t (1 : Fin 2) * 128 + 1 * (y 1).val = (y 1).val; omega

/-- The one block of window 11 is its whole array. -/
theorem blk11 (t : Fin cfg0.N) (y : S1x128.Idx) :
    iblk (F := Ideal) m c 11 t y = V (F := Ideal) m c main_v46 y := by
  obtain ⟨e0, e1⟩ := idx11 t
  show V (F := Ideal) m c main_v46 (((cfg0.win 11).blk t).view.emb y) = _
  refine congrArg (fun i => V (F := Ideal) m c main_v46 i) (funext fun a => Fin.ext ?_)
  match a with
  | ⟨0, _⟩ => show win0_11.index t (0 : Fin 2) * 1 + 1 * (y 0).val = (y 0).val; omega
  | ⟨1, _⟩ => show win0_11.index t (1 : Fin 2) * 128 + 1 * (y 1).val = (y 1).val; omega

/-- The one block of window 12 is its whole array. -/
theorem blk12 (t : Fin cfg0.N) (y : S1x128.Idx) :
    iblk (F := Ideal) m c 12 t y = V (F := Ideal) m c main_v47 y := by
  obtain ⟨e0, e1⟩ := idx12 t
  show V (F := Ideal) m c main_v47 (((cfg0.win 12).blk t).view.emb y) = _
  refine congrArg (fun i => V (F := Ideal) m c main_v47 i) (funext fun a => Fin.ext ?_)
  match a with
  | ⟨0, _⟩ => show win0_12.index t (0 : Fin 2) * 1 + 1 * (y 0).val = (y 0).val; omega
  | ⟨1, _⟩ => show win0_12.index t (1 : Fin 2) * 128 + 1 * (y 1).val = (y 1).val; omega

/-- The one block of window 13 is its whole array. -/
theorem blk13 (t : Fin cfg0.N) (y : S1x128.Idx) :
    iblk (F := Ideal) m c 13 t y = V (F := Ideal) m c main_v48 y := by
  obtain ⟨e0, e1⟩ := idx13 t
  show V (F := Ideal) m c main_v48 (((cfg0.win 13).blk t).view.emb y) = _
  refine congrArg (fun i => V (F := Ideal) m c main_v48 i) (funext fun a => Fin.ext ?_)
  match a with
  | ⟨0, _⟩ => show win0_13.index t (0 : Fin 2) * 1 + 1 * (y 0).val = (y 0).val; omega
  | ⟨1, _⟩ => show win0_13.index t (1 : Fin 2) * 128 + 1 * (y 1).val = (y 1).val; omega

/-- The one block of window 14 is its whole array. -/
theorem blk14 (t : Fin cfg0.N) (y : S1x128.Idx) :
    iblk (F := Ideal) m c 14 t y = V (F := Ideal) m c main_v49 y := by
  obtain ⟨e0, e1⟩ := idx14 t
  show V (F := Ideal) m c main_v49 (((cfg0.win 14).blk t).view.emb y) = _
  refine congrArg (fun i => V (F := Ideal) m c main_v49 i) (funext fun a => Fin.ext ?_)
  match a with
  | ⟨0, _⟩ => show win0_14.index t (0 : Fin 2) * 1 + 1 * (y 0).val = (y 0).val; omega
  | ⟨1, _⟩ => show win0_14.index t (1 : Fin 2) * 128 + 1 * (y 1).val = (y 1).val; omega

/-- The one block of window 15 is its whole array. -/
theorem blk15 (t : Fin cfg0.N) (y : S128x1.Idx) :
    iblk (F := Ideal) m c 15 t y = V (F := Ideal) m c main_v53 y := by
  obtain ⟨e0, e1⟩ := idx15 t
  show V (F := Ideal) m c main_v53 (((cfg0.win 15).blk t).view.emb y) = _
  refine congrArg (fun i => V (F := Ideal) m c main_v53 i) (funext fun a => Fin.ext ?_)
  match a with
  | ⟨0, _⟩ => show win0_15.index t (0 : Fin 2) * 128 + 1 * (y 0).val = (y 0).val; omega
  | ⟨1, _⟩ => show win0_15.index t (1 : Fin 2) * 1 + 1 * (y 1).val = (y 1).val; omega

/-- The one block of window 16 is its whole array. -/
theorem blk16 (t : Fin cfg0.N) (y : S1x1.Idx) :
    iblk (F := Ideal) m c 16 t y = V (F := Ideal) m c main_v50 y := by
  obtain ⟨e0, e1⟩ := idx16 t
  show V (F := Ideal) m c main_v50 (((cfg0.win 16).blk t).view.emb y) = _
  refine congrArg (fun i => V (F := Ideal) m c main_v50 i) (funext fun a => Fin.ext ?_)
  match a with
  | ⟨0, _⟩ => show win0_16.index t (0 : Fin 2) * 1 + 1 * (y 0).val = (y 0).val; omega
  | ⟨1, _⟩ => show win0_16.index t (1 : Fin 2) * 1 + 1 * (y 1).val = (y 1).val; omega

end Cert.DeepFM.Blocks

end
-- ==== Proof.RowCongr.lean ====
/-
  The two ways of taking the per-coordinate sums give one score.

  If column `k` of the flattened row holds the embedding of feature `k / 16` at coordinate `k % 16`, and the selector is one
  exactly on the columns of coordinate `d`, then the row summed against the selector is the sum over the features of the
  embeddings at `d`, and likewise for the squares; so the score formed with the selected sums is the score formed with the
  sums over the features.
-/
import proofs.«147037_j43757126812202_2_alg».proof.Proof.Model
import proofs.«147037_j43757126812202_2_alg».proof.Proof.SelectSum

noncomputable section

namespace Cert.DeepFM

open Idealize.ShloMosaic

theorem score_select (x : Fin 416 → EReal) (S : Fin 416 → Fin 16 → EReal) (e : Fin 26 → Fin 16 → EReal)
    (hx : ∀ k, x k = e (featOf k) (coordOf k)) (hS : ∀ k d, S k d = if k.val % 16 = d.val then (1 : EReal) else 0)
    (eps lo half fm1 : EReal)
    (W1 : Fin 416 → Fin 256 → EReal) (b1 g1 be1 m1 v1 : Fin 256 → EReal)
    (W2 : Fin 256 → Fin 128 → EReal) (b2 g2 be2 m2 v2 : Fin 128 → EReal)
    (W3 : Fin 128 → Fin 1 → EReal) (b3 : Fin 1 → EReal) :
    score eps lo half x (fun d => ∑ k : Fin 416, x k * S k d) (fun d => ∑ k : Fin 416, x k * x k * S k d) fm1
        W1 b1 g1 be1 m1 v1 W2 b2 g2 be2 m2 v2 W3 b3
      = score eps lo half (fun k => e (featOf k) (coordOf k)) (fun d => ∑ f : Fin 26, e f d) (fun d => ∑ f : Fin 26, e f d * e f d) fm1
        W1 b1 g1 be1 m1 v1 W2 b2 g2 be2 m2 v2 W3 b3 := by
  have hx' : x = fun k => e (featOf k) (coordOf k) := funext hx
  have hse : (fun d => ∑ k : Fin 416, x k * S k d) = fun d => ∑ f : Fin 26, e f d := by
    funext d
    rw [sum_mul_select x (fun k => S k d) d (fun k => hS k d)]
    refine Finset.sum_congr rfl fun f _ => ?_
    rw [hx, featOf_col, coordOf_col]
  have hsq : (fun d => ∑ k : Fin 416, x k * x k * S k d) = fun d => ∑ f : Fin 26, e f d * e f d := by
    funext d
    rw [sum_mul_select (fun k => x k * x k) (fun k => S k d) d (fun k => hS k d)]
    refine Finset.sum_congr rfl fun f _ => ?_
    show x (col f d) * x (col f d) = _
    rw [hx, featOf_col, coordOf_col]
  rw [hse, hsq, hx']

end Cert.DeepFM

end
-- ==== Proof.BodyScores.lean ====
/-
  Row `p` of the body's result is a row of the batch's scores.

  Given what the body's input blocks hold — row `p` of the embeddings block is row `R` of the flattened embeddings, the
  first-order block's row `p` is row `R` of the first-order terms, the selector is the 0/1 column selector, and the other
  blocks are the parameter arrays (the vectors as one-row matrices) — row `p` of what the body stores is entry `(R, 0)` of
  the scores of the whole batch.
-/
import proofs.«147037_j43757126812202_2_alg».proof.Proof.Payload
import proofs.«147037_j43757126812202_2_alg».proof.Proof.RowCongr

noncomputable section

namespace Cert.DeepFM.Body

open Idealize.ShloMosaic Idealize.ShloMosaic.ValueIdx Cert.KernelIdeal Cert.KernelIdeal.Gen Cert.DeepFM

theorem body_row_scores (X0 : FVec Ideal S2048x416 .bf16) (X1 : FVec Ideal S2048x1 .f32) (X2 : FVec Ideal S416x16 .bf16)
    (X3 : FVec Ideal S416x256 .bf16) (X4 X5 X6 X7 X8 : FVec Ideal S1x256 .f32) (X9 : FVec Ideal S256x128 .bf16)
    (X10 X11 X12 X13 X14 : FVec Ideal S1x128 .f32) (X15 : FVec Ideal S128x1 .bf16) (X16 : FVec Ideal S1x1 .f32)
    (p : Fin 2048) (R : Fin 16384)
    (E : (⟨3, ![16384, 26, 16]⟩ : Shape).Idx → EReal) (FM1 : (⟨2, ![16384, 1]⟩ : Shape).Idx → EReal)
    (A3 : (⟨2, ![416, 256]⟩ : Shape).Idx → EReal) (A4 A5 A6 A7 A8 : (⟨1, ![256]⟩ : Shape).Idx → EReal)
    (A9 : (⟨2, ![256, 128]⟩ : Shape).Idx → EReal) (A10 A11 A12 A13 A14 : (⟨1, ![128]⟩ : Shape).Idx → EReal)
    (A15 : (⟨2, ![128, 1]⟩ : Shape).Idx → EReal) (A16 : (⟨1, ![1]⟩ : Shape).Idx → EReal)
    (h0 : ∀ k : Fin 416, X0 (ix2 p k) = E (ix3 R (featOf k) (coordOf k)))
    (h1 : X1 (ix2 p (0 : Fin 1)) = FM1 (ix2 R (0 : Fin 1)))
    (h2 : ∀ (k : Fin 416) (d : Fin 16), X2 (ix2 k d) = if k.val % 16 = d.val then (1 : EReal) else 0)
    (h3 : ∀ (k : Fin 416) (j : Fin 256), X3 (ix2 k j) = A3 (ix2 k j))
    (h4 : ∀ j : Fin 256, X4 (ix2 (0 : Fin 1) j) = A4 (ix1 j)) (h5 : ∀ j : Fin 256, X5 (ix2 (0 : Fin 1) j) = A5 (ix1 j))
    (h6 : ∀ j : Fin 256, X6 (ix2 (0 : Fin 1) j) = A6 (ix1 j)) (h7 : ∀ j : Fin 256, X7 (ix2 (0 : Fin 1) j) = A7 (ix1 j))
    (h8 : ∀ j : Fin 256, X8 (ix2 (0 : Fin 1) j) = A8 (ix1 j))
    (h9 : ∀ (k : Fin 256) (j : Fin 128), X9 (ix2 k j) = A9 (ix2 k j))
    (h10 : ∀ j : Fin 128, X10 (ix2 (0 : Fin 1) j) = A10 (ix1 j)) (h11 : ∀ j : Fin 128, X11 (ix2 (0 : Fin 1) j) = A11 (ix1 j))
    (h12 : ∀ j : Fin 128, X12 (ix2 (0 : Fin 1) j) = A12 (ix1 j)) (h13 : ∀ j : Fin 128, X13 (ix2 (0 : Fin 1) j) = A13 (ix1 j))
    (h14 : ∀ j : Fin 128, X14 (ix2 (0 : Fin 1) j) = A14 (ix1 j))
    (h15 : ∀ (k : Fin 128) (j : Fin 1), X15 (ix2 k j) = A15 (ix2 k j))
    (h16 : ∀ j : Fin 1, X16 (ix2 (0 : Fin 1) j) = A16 (ix1 j)) :
    k0_pay1 (F := Ideal) (k0_pay5 (k0_pay3 X0 X3 X4 X7 X8 X5 X6 X9) (k0_pay4 X10) X13 X14 X11 X12 X15 X16) (k0_pay6 (k0_pay2 X0) X2)
        (Scalar.ofBits .f32 0x3F000000#32) X1 (ix2 p (0 : Fin 1))
      = scoreArray E FM1 A3 A4 A5 A6 A7 A8 A9 A10 A11 A12 A13 A14 A15 A16 (ix2 R (0 : Fin 1)) := by
  rw [body_row]
  simp only [h1, h3, h4, h5, h6, h7, h8, h9, h10, h11, h12, h13, h14, h15, h16]
  rw [score_select (fun c => X0 (ix2 p c)) (fun k d => X2 (ix2 k d)) (fun f d => E (ix3 R f d)) h0 h2]
  unfold scoreArray
  rw [rowOf_ix2]

end Cert.DeepFM.Body

end
-- ==== Proof.Blocks.lean ====
/-
  From the blocks to the whole array.

  The grid has 8 points; point `t` reads rows `2048 t … 2048 t + 2047` of the embeddings and of the first-order term, the
  whole of every other input, and writes rows `2048 t … 2048 t + 2047` of the result.  So what point `t` writes back is
  block `t` of ONE function of the region's input arrays, the scores of the whole batch; the 8 blocks cover the result
  array; hence after the run the result array is that function.  The two per-coordinate sums the body takes through the
  0/1 column selector are the sums over the 26 features.
-/
import proofs.«147037_j43757126812202_2_alg».proof.Proof.Gen.KernelIdeal.Value
import proofs.«147037_j43757126812202_2_alg».proof.Proof.BlocksIdx
import proofs.«147037_j43757126812202_2_alg».proof.Proof.Payload
import proofs.«147037_j43757126812202_2_alg».proof.Proof.BodyScores
import proofs.«147037_j43757126812202_2_alg».proof.Proof.HostArrays
import proofs.«147037_j43757126812202_2_alg».proof.Proof.HostParams
import proofs.«147037_j43757126812202_2_alg».proof.Proof.SelectSum
import proofs.«147037_j43757126812202_2_alg».proof.Proof.Model
import Idealize.ShloMosaic.Lib.Pipeline.Value

noncomputable section

namespace Cert.DeepFM.Blocks

open Idealize.ShloMosaic Idealize.SL.Sem Cert.KernelIdeal Cert.KernelIdeal.Gen Idealize.ShloMosaic.TcCoe Idealize.ShloMosaic.ValueIdx Cert.DeepFM
open Idealize.ShloMosaic.Pipeline (Dat)

variable (m : (ℓ : Loc nD τ sig) → Buf (Elt Ideal) ℓ) (c : Dev nD)

/-! ## What the result array ends holding -/

/-- The scores of the whole batch, of the region's gathered embeddings and first-order terms and the parameter arguments. -/
def G : S16384x1.Idx → EReal :=
  scoreArray (Host.gathered m c) (Host.firstOrder m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))

theorem hz : (![0, 0] : Fin 2 → Nat) = fun _ => 0 := funext fun a => by fin_cases a <;> rfl

/-- Row `p` of the result's block `t` is row `2048 t + p` of the result array. -/
theorem emb17 (t : Fin cfg0.N) (p : Fin 2048) :
    ((cfg0.win 17).blk t).view.emb (ix2 p (0 : Fin 1)) = ix2 (rowAt t p) (0 : Fin 1) := by
  obtain ⟨e0, e1⟩ := idx17 t
  refine funext fun a => Fin.ext ?_
  match a with
  | ⟨0, _⟩ => show win0_17.index t (0 : Fin 2) * 2048 + 1 * p.val = t.val * 2048 + p.val; omega
  | ⟨1, _⟩ => show win0_17.index t (1 : Fin 2) * 1 + 1 * 0 = 0; omega

/-- WHAT POINT `t` WRITES BACK is block `t` of `G`. -/
theorem flushed_eq (t : Fin cfg0.N) :
    (dats m 0 c).flushed 17 t = ((cfg0.win 17).blk t).view.read (Elt Ideal) (G m c) := by
  rw [Cert.KernelIdeal.Value.flushed17]
  unfold out0_17
  rw [View.canon_unit_zero hz]
  simp only [View.ld_unit_zero (S := S2048x416) hz, View.ld_unit_zero (S := S416x256) hz, View.ld_unit_zero (S := S1x256) hz,
    View.ld_unit_zero (S := S256x128) hz, View.ld_unit_zero (S := S1x128) hz, View.ld_unit_zero (S := S128x1) hz,
    View.ld_unit_zero (S := S1x1) hz, View.ld_unit_zero (S := S416x16) hz, View.ld_unit_zero (S := S2048x1) hz]
  funext y
  obtain ⟨p, z, rfl⟩ : ∃ (p : Fin 2048) (z : Fin 1), y = ix2 p z := ⟨y 0, y 1, eq_ix2 y⟩
  obtain rfl : z = 0 := Subsingleton.elim _ _
  refine (Body.body_row_scores (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t) (iblk m c 14 t)
    (iblk m c 15 t) (iblk m c 16 t) p (rowAt t p) (Host.gathered m c) (Host.firstOrder m c)
    (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
    (m ((c : Thread nD τ).loc main_arg15)) (m ((c : Thread nD τ).loc main_arg16))
    (fun k => (blk0 m c t p k).trans (Host.emb_apply m c (rowAt t p) k))
    ((blk1 m c t p (0 : Fin 1)).trans (congrFun (Host.first_eq m c) _))
    (fun k d => (blk2 m c t (ix2 k d)).trans (Host.sel_apply m c k d))
    (fun k j => (blk3 m c t (ix2 k j)).trans (Host.mat_v51 m c (ix2 k j)))
    (fun j => (blk4 m c t (ix2 (0 : Fin 1) j)).trans (Host.row_v40 m c j))
    (fun j => (blk5 m c t (ix2 (0 : Fin 1) j)).trans (Host.row_v41 m c j))
    (fun j => (blk6 m c t (ix2 (0 : Fin 1) j)).trans (Host.row_v42 m c j))
    (fun j => (blk7 m c t (ix2 (0 : Fin 1) j)).trans (Host.row_v43 m c j))
    (fun j => (blk8 m c t (ix2 (0 : Fin 1) j)).trans (Host.row_v44 m c j))
    (fun k j => (blk9 m c t (ix2 k j)).trans (Host.mat_v52 m c (ix2 k j)))
    (fun j => (blk10 m c t (ix2 (0 : Fin 1) j)).trans (Host.row_v45 m c j))
    (fun j => (blk11 m c t (ix2 (0 : Fin 1) j)).trans (Host.row_v46 m c j))
    (fun j => (blk12 m c t (ix2 (0 : Fin 1) j)).trans (Host.row_v47 m c j))
    (fun j => (blk13 m c t (ix2 (0 : Fin 1) j)).trans (Host.row_v48 m c j))
    (fun j => (blk14 m c t (ix2 (0 : Fin 1) j)).trans (Host.row_v49 m c j))
    (fun k j => (blk15 m c t (ix2 k j)).trans (Host.mat_v53 m c (ix2 k j)))
    (fun j => (blk16 m c t (ix2 (0 : Fin 1) j)).trans (Host.row_v50 m c j))).trans ?_
  show G m c (ix2 (rowAt t p) (0 : Fin 1)) = G m c (((cfg0.win 17).blk t).view.emb (ix2 p (0 : Fin 1)))
  rw [emb17 t p]

/-- An index of the result array is in point `t`'s block iff each coordinate is in the block's range on its axis. -/
theorem mem_blk17 (t : Fin cfg0.N) (i : S16384x1.Idx) :
    i ∈ ((cfg0.win 17).blk t).view.set ↔ ∀ a : Fin 2, win0_17.index t a * S2048x1.size a ≤ (i a).val
      ∧ (i a).val < win0_17.index t a * S2048x1.size a + S2048x1.size a := by
  show i ∈ ((View.whole main_v54).slice (win0_17.rect t)).set ↔ _
  rw [View.set_slice_whole, Rect.mem_set_unit]
  exact Iff.rfl

/-- Every row of the result is in the block of the point `row / 2048`. -/
theorem cover (i : S16384x1.Idx) :
    ∃ t : Fin cfg0.N, (cfg0.win 17).flush t = true ∧ i ∈ ((cfg0.win 17).blk t).view.set := by
  have hi0 : (i 0).val < 16384 := (i 0).isLt
  have hi1 : (i 1).val < 1 := (i 1).isLt
  have hN : (i 0).val / 2048 < cfg0.N := by rw [show cfg0.N = 8 from N_0]; omega
  refine ⟨⟨(i 0).val / 2048, hN⟩, flush0_17 _, ?_⟩
  rw [mem_blk17]
  obtain ⟨e0, e1⟩ := idx17 ⟨(i 0).val / 2048, hN⟩
  have e0' : win0_17.index ⟨(i 0).val / 2048, hN⟩ (0 : Fin 2) = (i 0).val / 2048 := e0
  intro a
  match a with
  | ⟨0, _⟩ =>
    show win0_17.index ⟨(i 0).val / 2048, hN⟩ (0 : Fin 2) * 2048 ≤ (i 0).val
      ∧ (i 0).val < win0_17.index ⟨(i 0).val / 2048, hN⟩ (0 : Fin 2) * 2048 + 2048
    omega
  | ⟨1, _⟩ =>
    show win0_17.index ⟨(i 0).val / 2048, hN⟩ (1 : Fin 2) * 1 ≤ (i 1).val
      ∧ (i 1).val < win0_17.index ⟨(i 0).val / 2048, hN⟩ (1 : Fin 2) * 1 + 1
    omega

/-- THE RESULT ARRAY after the run is `G`. -/
theorem final : (dats m 0 c).arrAt 17 cfg0.N = G m c :=
  (dats m 0 c).arrAt_eq_of_cover 17 (G m c) (fun t _ => flushed_eq m c t) (cover)

end Cert.DeepFM.Blocks

end
-- ==== Proof.KernelRun.lean ====
/-
  The kernel's run, read: every weakly fair execution ends with the result array at the scores of the whole batch and the
  arguments as they were.
-/
import proofs.«147037_j43757126812202_2_alg».proof.Proof.Blocks

noncomputable section

namespace Cert.DeepFM.Blocks

open Idealize.ShloMosaic Idealize.SL.Sem Cert.KernelIdeal Cert.KernelIdeal.Gen Idealize.ShloMosaic.TcCoe Idealize.ShloMosaic.ValueIdx Cert.DeepFM

variable (m : (ℓ : Loc nD τ sig) → Buf (Elt Ideal) ℓ)

set_option backward.isDefEq.respectTransparency.types false in
/-- The kernel's run, with the result array named as `G` and the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v54) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16) :=
  (θ_run defs _ _).mono (fun r h c => ⟨(h c).1.trans (final m c), (h c).2⟩) (Cert.KernelIdeal.Value.run_blocks m ρ)

end Cert.DeepFM.Blocks

end
-- ==== Proof.RefRead.lean ====
/-
  The reference, read at one row.

  Each stage of the reference is read at an index from its operands at an index; chained from the result back to the
  gathered embeddings and the first-order term, row `r` of the reference's result is the `score` of row `r`: the dense
  layers are sums over their contraction index, the statistics are vectors broadcast down the rows, the flattened row holds
  the embedding of feature `c / 16` at coordinate `c % 16` in column `c`, the two per-coordinate sums run over the 26
  features, and the host's `1 / (1 + exp (−x))` is the logistic function.
-/
import proofs.«147037_j43757126812202_2_alg».proof.Proof.Gen.ReferenceIdeal.Read
import proofs.«147037_j43757126812202_2_alg».proof.Proof.Model
import Idealize.ShloMosaic.Lib.IdealHost

noncomputable section

namespace Cert.DeepFM.Ref

open Idealize.ShloMosaic Idealize.ShloMosaic.ValueIdx Cert.ReferenceIdeal Cert.ReferenceIdeal.Read Cert.DeepFM

variable (x0 : (⟨S16384x26, .i32⟩ : BufTy).Contents (Elt Ideal)) (x1 : (⟨S26x100000x1, .f32⟩ : BufTy).Contents (Elt Ideal))
  (x2 : (⟨S26x100000x16, .f32⟩ : BufTy).Contents (Elt Ideal)) (x3 : (⟨S416x256, .f32⟩ : BufTy).Contents (Elt Ideal))
  (x4 x5 x6 x7 x8 : (⟨S256, .f32⟩ : BufTy).Contents (Elt Ideal)) (x9 : (⟨S256x128, .f32⟩ : BufTy).Contents (Elt Ideal))
  (x10 x11 x12 x13 x14 : (⟨S128, .f32⟩ : BufTy).Contents (Elt Ideal)) (x15 : (⟨S128x1, .f32⟩ : BufTy).Contents (Elt Ideal))
  (x16 : (⟨S1, .f32⟩ : BufTy).Contents (Elt Ideal))

/-- Row `r` of the gathered embeddings, flattened: column `c` holds feature `c / 16` at coordinate `c % 16`. -/
def flatRow (r : Fin 16384) (c : Fin 416) : EReal := val_main_v31 (F := Ideal) x0 x2 (ix3 r (featOf c) (coordOf c))

/-- Entry `k` of the first hidden layer of row `r`. -/
def hid1 (r : Fin 16384) (k : Fin 256) : EReal :=
  normClamp epsW loW (dense (flatRow x0 x2 r) (fun c j => x3 (ix2 c j)) (fun j => x4 (ix1 j)) k)
    (x7 (ix1 k)) (x8 (ix1 k)) (x5 (ix1 k)) (x6 (ix1 k))

/-- Entry `k` of the second hidden layer of row `r`. -/
def hid2 (r : Fin 16384) (k : Fin 128) : EReal :=
  normClamp epsW loW (dense (hid1 x0 x2 x3 x4 x5 x6 x7 x8 r) (fun c j => x9 (ix2 c j)) (fun j => x10 (ix1 j)) k)
    (x13 (ix1 k)) (x14 (ix1 k)) (x11 (ix1 k)) (x12 (ix1 k))

/-- The first hidden layer, as the reference computes it. -/
theorem hid1_eq (r : Fin 16384) (k : Fin 256) :
    val_main_v64 (F := Ideal) x0 x2 x3 x4 x5 x6 x7 x8 (ix2 r k) = hid1 x0 x2 x3 x4 x5 x6 x7 x8 r k := by
  have e4 : idx_main_v46 (idx_main_v47 (ix2 r k)) = ix1 k := funext fun a => Fin.ext (by match a with | ⟨0, _⟩ => rfl)
  have e7 : idx_main_v49 (idx_main_v50 (ix2 r k)) = ix1 k := funext fun a => Fin.ext (by match a with | ⟨0, _⟩ => rfl)
  have e8 : idx_main_v55 (idx_main_v56 (ix2 r k)) = ix1 k := funext fun a => Fin.ext (by match a with | ⟨0, _⟩ => rfl)
  have e5 : idx_main_v58 (idx_main_v59 (ix2 r k)) = ix1 k := funext fun a => Fin.ext (by match a with | ⟨0, _⟩ => rfl)
  have e6 : idx_main_v61 (idx_main_v62 (ix2 r k)) = ix1 k := funext fun a => Fin.ext (by match a with | ⟨0, _⟩ => rfl)
  have el : ∀ c : Fin 416, idx_main_v44 (lidx_main_v45 (ix2 r k) c) = ix3 r (featOf c) (coordOf c) := fun c =>
    funext fun a => Fin.ext (by
      have hr := r.isLt
      have hc := c.isLt
      match a with
      | ⟨0, _⟩ => show (r.val * 416 + c.val) / 416 = r.val; omega
      | ⟨1, _⟩ => show (r.val * 416 + c.val) / 16 % 26 = c.val / 16; omega
      | ⟨2, _⟩ => show (r.val * 416 + c.val) % 16 = c.val % 16; omega)
  have er : ∀ c : Fin 416, ridx_main_v45 (ix2 r k) c = ix2 c k := fun c =>
    funext fun a => Fin.ext (by match a with | ⟨0, _⟩ => rfl | ⟨1, _⟩ => rfl)
  simp only [val_main_v64_apply, val_main_v63_apply, val_main_v60_apply, val_main_v57_apply, val_main_v51_apply, val_main_v48_apply,
    val_main_v45_apply, val_main_v44_apply, val_main_v47_apply, val_main_v46_apply, val_main_v50_apply, val_main_v49_apply,
    val_main_v56_apply, val_main_v55_apply, val_main_v54_apply, val_main_v53_apply, val_main_v52_apply, val_main_cst_11_apply,
    val_main_v59_apply, val_main_v58_apply, val_main_v62_apply, val_main_v61_apply, val_main_call0_v0_apply,
    val_main_call0_cst_apply, e4, e7, e8, e5, e6, el, er]
  rfl

/-- The second hidden layer, as the reference computes it. -/
theorem hid2_eq (r : Fin 16384) (k : Fin 128) :
    val_main_v84 (F := Ideal) x0 x2 x3 x4 x5 x6 x7 x8 x9 x10 x11 x12 x13 x14 (ix2 r k)
      = hid2 x0 x2 x3 x4 x5 x6 x7 x8 x9 x10 x11 x12 x13 x14 r k := by
  have e10 : idx_main_v66 (idx_main_v67 (ix2 r k)) = ix1 k := funext fun a => Fin.ext (by match a with | ⟨0, _⟩ => rfl)
  have e13 : idx_main_v69 (idx_main_v70 (ix2 r k)) = ix1 k := funext fun a => Fin.ext (by match a with | ⟨0, _⟩ => rfl)
  have e14 : idx_main_v75 (idx_main_v76 (ix2 r k)) = ix1 k := funext fun a => Fin.ext (by match a with | ⟨0, _⟩ => rfl)
  have e11 : idx_main_v78 (idx_main_v79 (ix2 r k)) = ix1 k := funext fun a => Fin.ext (by match a with | ⟨0, _⟩ => rfl)
  have e12 : idx_main_v81 (idx_main_v82 (ix2 r k)) = ix1 k := funext fun a => Fin.ext (by match a with | ⟨0, _⟩ => rfl)
  have el : ∀ c : Fin 256, lidx_main_v65 (ix2 r k) c = ix2 r c := fun c =>
    funext fun a => Fin.ext (by match a with | ⟨0, _⟩ => rfl | ⟨1, _⟩ => rfl)
  have er : ∀ c : Fin 256, ridx_main_v65 (ix2 r k) c = ix2 c k := fun c =>
    funext fun a => Fin.ext (by match a with | ⟨0, _⟩ => rfl | ⟨1, _⟩ => rfl)
  simp only [val_main_v84_apply, val_main_v83_apply, val_main_v80_apply, val_main_v77_apply, val_main_v71_apply, val_main_v68_apply,
    val_main_v65_apply, val_main_v67_apply, val_main_v66_apply, val_main_v70_apply, val_main_v69_apply,
    val_main_v76_apply, val_main_v75_apply, val_main_v74_apply, val_main_v73_apply, val_main_v72_apply, val_main_cst_12_apply,
    val_main_v79_apply, val_main_v78_apply, val_main_v82_apply, val_main_v81_apply, val_main_call1_v0_apply,
    val_main_call1_cst_apply, e10, e13, e14, e11, e12, el, er, hid1_eq]
  rfl

/-- A sum that starts from the zero word is the sum. -/
theorem zero_word_add (x : EReal) : Ideal.ofBits .f32 0x00000000#32 + x = x := by
  rw [Ideal.ofBits_zero_f32, zero_add]

/-- Row `r` of the reference's result is the score of row `r`. -/
theorem row_eq (r : Fin 16384) :
    val_main_v96 (F := Ideal) x0 x1 x2 x3 x4 x5 x6 x7 x8 x9 x10 x11 x12 x13 x14 x15 x16 (ix2 r (0 : Fin 1))
      = scoreArray (val_main_v31 (F := Ideal) x0 x2) (val_main_v34 (F := Ideal) x0 x1) x3 x4 x5 x6 x7 x8 x9 x10 x11 x12 x13 x14 x15 x16
          (ix2 r (0 : Fin 1)) := by
  have e16 : idx_main_v86 (idx_main_v87 (ix2 r (0 : Fin 1))) = ix1 (0 : Fin 1) := funext fun a => Fin.ext (by match a with | ⟨0, _⟩ => rfl)
  have el : ∀ c : Fin 128, lidx_main_v85 (ix2 r (0 : Fin 1)) c = ix2 r c := fun c =>
    funext fun a => Fin.ext (by match a with | ⟨0, _⟩ => rfl | ⟨1, _⟩ => rfl)
  have er : ∀ c : Fin 128, ridx_main_v85 (ix2 r (0 : Fin 1)) c = ix2 c (0 : Fin 1) := fun c =>
    funext fun a => Fin.ext (by match a with | ⟨0, _⟩ => rfl | ⟨1, _⟩ => rfl)
  have e41 : idx_main_v41 (ix2 r (0 : Fin 1)) = ix1 r := funext fun a => Fin.ext (by match a with | ⟨0, _⟩ => rfl)
  have e40 : ∀ d : Fin 16, idx_main_v40 (ix1 r) d = ix2 r d := fun d =>
    funext fun a => Fin.ext (by match a with | ⟨0, _⟩ => rfl | ⟨1, _⟩ => rfl)
  have e35 : ∀ (d : Fin 16) (f : Fin 26), idx_main_v35 (ix2 r d) f = ix3 r f d := fun d f =>
    funext fun a => Fin.ext (by match a with | ⟨0, _⟩ => rfl | ⟨1, _⟩ => rfl | ⟨2, _⟩ => rfl)
  have e38 : ∀ (d : Fin 16) (f : Fin 26), idx_main_v38 (ix2 r d) f = ix3 r f d := fun d f =>
    funext fun a => Fin.ext (by match a with | ⟨0, _⟩ => rfl | ⟨1, _⟩ => rfl | ⟨2, _⟩ => rfl)
  simp only [val_main_v96_apply, val_main_v95_apply, val_main_cst_14_apply, val_main_v94_apply, val_main_v93_apply, val_main_cst_13_apply,
    val_main_v92_apply, val_main_v91_apply, val_main_v90_apply, val_main_v89_apply, val_main_v88_apply, val_main_v85_apply,
    val_main_v87_apply, val_main_v86_apply, val_main_v43_apply, val_main_v42_apply, val_main_cst_10_apply, val_main_v41_apply,
    val_main_v40_apply, val_main_cst_9_apply, val_main_v39_apply, val_main_v36_apply, val_main_v35_apply, val_main_cst_7_apply,
    val_main_v38_apply, val_main_cst_8_apply, val_main_v37_apply, e16, el, er, e41, e40, e35, e38, hid2_eq,
    Ideal.ofBits_def, Ideal.addf_def, Ideal.mulf_def, Ideal.subf_def, Ideal.hostDivf_def, Ideal.hostNegf_def, Ideal.negf_def,
    Ideal.hostUnary_exp_def, zero_word_add, Ideal.ofBits_one_f32]
  rfl

/-- The reference's whole result is `scoreArray` of its gathered embeddings, its first-order terms and its parameters. -/
theorem result_eq :
    val_main_v96 (F := Ideal) x0 x1 x2 x3 x4 x5 x6 x7 x8 x9 x10 x11 x12 x13 x14 x15 x16
      = scoreArray (val_main_v31 (F := Ideal) x0 x2) (val_main_v34 (F := Ideal) x0 x1) x3 x4 x5 x6 x7 x8 x9 x10 x11 x12 x13 x14 x15 x16 := by
  funext i
  obtain ⟨r, z, rfl⟩ : ∃ (r : Fin 16384) (z : Fin 1), i = ix2 r z := ⟨i 0, i 1, eq_ix2 i⟩
  obtain rfl : z = 0 := Subsingleton.elim _ _
  exact row_eq x0 x1 x2 x3 x4 x5 x6 x7 x8 x9 x10 x11 x12 x13 x14 x15 x16 r

end Cert.DeepFM.Ref

end
-- ==== Proof.lean ====
/-
  Two programs compute a click score for each of 16384 examples: per-feature embeddings are gathered, a first-order term and a
  second-order interaction term are formed from them, the flattened embeddings go through two dense layers (each followed by
  a normalisation with given statistics and a clamp at zero) and a last dense layer of one column, and the logistic
  function is applied to the sum of the three terms.

  The kernel program does the gather and the first-order sum on the host exactly as the reference does, and the rest in one
  region over 8 blocks of 2048 rows.  It differs from the reference in three ways, none of which changes a value on the
  extended reals: it changes float format at several places (the identity there); it takes the two per-coordinate sums of
  the interaction term as products of the flattened row with a 0/1 column selector instead of sums over the features
  (`x · 0 = 0`, `x · 1 = x`, and a re-indexing of a finite sum: no finiteness is needed); and it applies the logistic
  function as one operation where the reference spells `1 / (1 + exp (−x))`.

  So both runs end with the result array at ONE function of the arguments, `Cert.DeepFM.Blocks.G`: the kernel's by reading
  its body at a row and covering the result by the 8 blocks, the reference's by reading its stages at a row.  The three
  frames are the generated ones (the reference's is its generated run with the result dropped); no operation of the kernel
  was rewritten when it was re-read on the extended reals, so `preserves` has nothing to state.
-/
import proofs.«147037_j43757126812202_2_alg».proof.Defs
import proofs.«147037_j43757126812202_2_alg».proof.Proof.Gen.Kernel
import proofs.«147037_j43757126812202_2_alg».proof.Proof.Gen.Kernel.Skeleton
import proofs.«147037_j43757126812202_2_alg».proof.Proof.Gen.Kernel.Launch
import proofs.«147037_j43757126812202_2_alg».proof.Proof.Gen.Kernel.Points
import proofs.«147037_j43757126812202_2_alg».proof.Proof.Gen.Kernel.Frame
import proofs.«147037_j43757126812202_2_alg».proof.Proof.Gen.KernelIdeal
import proofs.«147037_j43757126812202_2_alg».proof.Proof.Gen.KernelIdeal.Skeleton
import proofs.«147037_j43757126812202_2_alg».proof.Proof.Gen.KernelIdeal.Launch
import proofs.«147037_j43757126812202_2_alg».proof.Proof.Gen.KernelIdeal.Points
import proofs.«147037_j43757126812202_2_alg».proof.Proof.Gen.KernelIdeal.Frame
import proofs.«147037_j43757126812202_2_alg».proof.Proof.Gen.ReferenceIdeal
import proofs.«147037_j43757126812202_2_alg».proof.Proof.Gen.KernelIdeal.Value
import proofs.«147037_j43757126812202_2_alg».proof.Proof.Gen.ReferenceIdeal.Run
import proofs.«147037_j43757126812202_2_alg».proof.Proof.Gen.ReferenceIdeal.Read
import proofs.«147037_j43757126812202_2_alg».proof.Proof.Gen.Pre_finite_inputs
import proofs.«147037_j43757126812202_2_alg».proof.Proof.Blocks
import proofs.«147037_j43757126812202_2_alg».proof.Proof.KernelRun
import proofs.«147037_j43757126812202_2_alg».proof.Proof.RefRead
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs read on the extended reals, from memories that agree on the arguments, end with the result array at the
    scores of the whole batch as one function of the arguments. -/
theorem algebraic : Cert.algebraic_KernelIdeal_ReferenceIdeal := by
  intro m ρ m' ρ' _ hagree
  refine ⟨fun c => Cert.DeepFM.Blocks.G m c, Cert.DeepFM.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14, a15, a16⟩ := hagree c
  rw [Cert.ReferenceIdeal.Read.val_main_v96_eq, Cert.DeepFM.Ref.result_eq, a0, a1, a2, a3, a4, a5, a6, a7, a8, a9, a10, a11, a12,
    a13, a14, a15, a16]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
